-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x32x2 : Shape := ⟨4, ![1024, 64, 32, 2]⟩
abbrev S32x2 : Shape := ⟨2, ![32, 2]⟩
abbrev S32x32 : Shape := ⟨2, ![32, 32]⟩
abbrev S2x32 : Shape := ⟨2, ![2, 32]⟩
abbrev S_ : Shape := ⟨0, ![]⟩

class Facts : Prop where
  bcast_S_S1024x64x32x2 : S_.BroadcastsInDim S1024x64x32x2 (![] : Fin 0 → Fin S1024x64x32x2.rank)
  reducesTo_S1024x64x32x2_S_d0_1_2_3 : S1024x64x32x2.ReducesTo [0, 1, 2, 3] S_
  h_S_ : 0 < S_.numel
  bcast_S_S32x2 : S_.BroadcastsInDim S32x2 (![] : Fin 0 → Fin S32x2.rank)
  reducesTo_S32x2_S_d0_1 : S32x2.ReducesTo [0, 1] S_
  bcast_S_S32x32 : S_.BroadcastsInDim S32x32 (![] : Fin 0 → Fin S32x32.rank)
  reducesTo_S32x32_S_d0_1 : S32x32.ReducesTo [0, 1] S_
  bcast_S_S2x32 : S_.BroadcastsInDim S2x32 (![] : Fin 0 → Fin S2x32.rank)
  reducesTo_S2x32_S_d0_1 : S2x32.ReducesTo [0, 1] S_

variable [Facts]

def fn_part4 {F : FTy → Type} [FloatOps F] (main_arg14 : FVec F S2x32 .f32) (main_arg15 : FVec F S2x32 .f32) (main_v63 : IVec S_ 1) (main_v67 : IVec S_ 1) : IVec S_ 1 :=
  let main_v68 : IVec S_ 1 := andi main_v63 main_v67
  let main_v69 : FVec F S2x32 .f32 := Host.absf main_arg14
  let main_cst_26 : FVec F S_ .f32 := constant S_ .f32 0x7F800000#32
  let main_v70 : FVec F S2x32 .f32 := broadcastInDim S2x32 ![] bcast_S_S2x32 main_cst_26
  let main_v71 : IVec S2x32 1 := cmpf .olt main_v69 main_v70
  let main_c_27 : IVec S_ 1 := constantI S_ 1 1#1
  let main_v72 : IVec S_ 1 := (fun x v => Host.reduce IntOp.andi x v reducesTo_S2x32_S_d0_1 h_S_) main_v71 main_c_27
  let main_v73 : IVec S_ 1 := andi main_v68 main_v72
  let main_v74 : FVec F S2x32 .f32 := Host.absf main_arg15
  let main_cst_28 : FVec F S_ .f32 := constant S_ .f32 0x7F800000#32
  let main_v75 : FVec F S2x32 .f32 := broadcastInDim S2x32 ![] bcast_S_S2x32 main_cst_28
  let main_v76 : IVec S2x32 1 := cmpf .olt main_v74 main_v75
  let main_c_29 : IVec S_ 1 := constantI S_ 1 1#1
  let main_v77 : IVec S_ 1 := (fun x v => Host.reduce IntOp.andi x v reducesTo_S2x32_S_d0_1 h_S_) main_v76 main_c_29
  let main_v78 : IVec S_ 1 := andi main_v73 main_v77
  main_v78

def fn_part3 {F : FTy → Type} [FloatOps F] (main_arg11 : FVec F S32x32 .f32) (main_arg12 : FVec F S32x32 .f32) (main_arg13 : FVec F S2x32 .f32) (main_arg14 : FVec F S2x32 .f32) (main_arg15 : FVec F S2x32 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32x32 .f32 := Host.absf main_arg11
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32x32 .f32 := Host.absf main_arg12
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S2x32 .f32 := Host.absf main_arg13
  let main_cst_24 : FVec F S_ .f32 := constant S_ .f32 0x7F800000#32
  let main_v65 : FVec F S2x32 .f32 := broadcastInDim S2x32 ![] bcast_S_S2x32 main_cst_24
  let main_v66 : IVec S2x32 1 := cmpf .olt main_v64 main_v65
  let main_c_25 : IVec S_ 1 := constantI S_ 1 1#1
  let main_v67 : IVec S_ 1 := (fun x v => Host.reduce IntOp.andi x v reducesTo_S2x32_S_d0_1 h_S_) main_v66 main_c_25
  fn_part4 (F := F) main_arg14 main_arg15 main_v63 main_v67

def fn_part2 {F : FTy → Type} [FloatOps F] (main_arg7 : FVec F S32x32 .f32) (main_arg8 : FVec F S32x32 .f32) (main_arg9 : FVec F S32x32 .f32) (main_arg10 : FVec F S32x32 .f32) (main_arg11 : FVec F S32x32 .f32) (main_arg12 : FVec F S32x32 .f32) (main_arg13 : FVec F S2x32 .f32) (main_arg14 : FVec F S2x32 .f32) (main_arg15 : FVec F S2x32 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32x32 .f32 := Host.absf main_arg10
  let main_cst_18 : FVec F S_ .f32 := constant S_ .f32 0x7F800000#32
  let main_v50 : FVec F S32x32 .f32 := broadcastInDim S32x32 ![] bcast_S_S32x32 main_cst_18
  fn_part3 (F := F) main_arg11 main_arg12 main_arg13 main_arg14 main_arg15 main_v48 main_v49 main_v50

def fn_part1 {F : FTy → Type} [FloatOps F] (main_arg4 : FVec F S32x32 .f32) (main_arg5 : FVec F S32x32 .f32) (main_arg6 : FVec F S32x32 .f32) (main_arg7 : FVec F S32x32 .f32) (main_arg8 : FVec F S32x32 .f32) (main_arg9 : FVec F S32x32 .f32) (main_arg10 : FVec F S32x32 .f32) (main_arg11 : FVec F S32x32 .f32) (main_arg12 : FVec F S32x32 .f32) (main_arg13 : FVec F S2x32 .f32) (main_arg14 : FVec F S2x32 .f32) (main_arg15 : FVec F S2x32 .f32) (main_v13 : IVec S_ 1) (main_v16 : IVec S32x2 1) : IVec S_ 1 :=
  let main_c_5 : IVec S_ 1 := constantI S_ 1 1#1
  let main_v17 : IVec S_ 1 := (fun x v => Host.reduce IntOp.andi x v reducesTo_S32x2_S_d0_1 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S1024x64x32x2 .f32) (main_arg1 : FVec F S32x2 .f32) (main_arg2 : FVec F S32x2 .f32) (main_arg3 : FVec F S32x2 .f32) (main_arg4 : FVec F S32x32 .f32) (main_arg5 : FVec F S32x32 .f32) (main_arg6 : FVec F S32x32 .f32) (main_arg7 : FVec F S32x32 .f32) (main_arg8 : FVec F S32x32 .f32) (main_arg9 : FVec F S32x32 .f32) (main_arg10 : FVec F S32x32 .f32) (main_arg11 : FVec F S32x32 .f32) (main_arg12 : FVec F S32x32 .f32) (main_arg13 : FVec F S2x32 .f32) (main_arg14 : FVec F S2x32 .f32) (main_arg15 : FVec F S2x32 .f32) : IVec S_ 1 :=
  let main_v0 : FVec F S1024x64x32x2 .f32 := Host.absf main_arg0
  let main_cst : FVec F S_ .f32 := constant S_ .f32 0x7F800000#32
  let main_v1 : FVec F S1024x64x32x2 .f32 := broadcastInDim S1024x64x32x2 ![] bcast_S_S1024x64x32x2 main_cst
  let main_v2 : IVec S1024x64x32x2 1 := cmpf .olt main_v0 main_v1
  let main_c : IVec S_ 1 := constantI S_ 1 1#1
  let main_v3 : IVec S_ 1 := (fun x v => Host.reduce IntOp.andi x v reducesTo_S1024x64x32x2_S_d0_1_2_3 h_S_) main_v2 main_c
  let main_v4 : FVec F S32x2 .f32 := Host.absf main_arg1
  let main_cst_0 : FVec F S_ .f32 := constant S_ .f32 0x7F800000#32
  let main_v5 : FVec F S32x2 .f32 := broadcastInDim S32x2 ![] bcast_S_S32x2 main_cst_0
  let main_v6 : IVec S32x2 1 := cmpf .olt main_v4 main_v5
  let main_c_1 : IVec S_ 1 := constantI S_ 1 1#1
  let main_v7 : IVec S_ 1 := (fun x v => Host.reduce IntOp.andi x v reducesTo_S32x2_S_d0_1 h_S_) main_v6 main_c_1
  let main_v8 : IVec S_ 1 := andi main_v3 main_v7
  let main_v9 : FVec F S32x2 .f32 := Host.absf main_arg2
  let main_cst_2 : FVec F S_ .f32 := constant S_ .f32 0x7F800000#32
  let main_v10 : FVec F S32x2 .f32 := broadcastInDim S32x2 ![] bcast_S_S32x2 main_cst_2
  let main_v11 : IVec S32x2 1 := cmpf .olt main_v9 main_v10
  let main_c_3 : IVec S_ 1 := constantI S_ 1 1#1
  let main_v12 : IVec S_ 1 := (fun x v => Host.reduce IntOp.andi x v reducesTo_S32x2_S_d0_1 h_S_) main_v11 main_c_3
  let main_v13 : IVec S_ 1 := andi main_v8 main_v12
  let main_v14 : FVec F S32x2 .f32 := Host.absf main_arg3
  let main_cst_4 : FVec F S_ .f32 := constant S_ .f32 0x7F800000#32
  let main_v15 : FVec F S32x2 .f32 := broadcastInDim S32x2 ![] bcast_S_S32x2 main_cst_4
  let main_v16 : IVec S32x2 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S1024x64x32x2 : Shape := ⟨4, ![1024, 64, 32, 2]⟩
abbrev S32x2 : Shape := ⟨2, ![32, 2]⟩
abbrev S32x32 : Shape := ⟨2, ![32, 32]⟩
abbrev S2x32 : Shape := ⟨2, ![2, 32]⟩
abbrev S1024x32x2x64 : Shape := ⟨4, ![1024, 32, 2, 64]⟩
abbrev S8x32x2x64 : Shape := ⟨4, ![8, 32, 2, 64]⟩
abbrev S8x32x32x64 : Shape := ⟨4, ![8, 32, 32, 64]⟩
abbrev S256x2x64 : Shape := ⟨3, ![256, 2, 64]⟩
abbrev S1x32x2 : Shape := ⟨3, ![1, 32, 2]⟩
abbrev S256x32x2 : Shape := ⟨3, ![256, 32, 2]⟩
abbrev S256x32x64 : Shape := ⟨3, ![256, 32, 64]⟩
abbrev S8x2x64 : Shape := ⟨3, ![8, 2, 64]⟩
abbrev S8x32x2 : Shape := ⟨3, ![8, 32, 2]⟩
abbrev S8x32x64 : Shape := ⟨3, ![8, 32, 64]⟩
abbrev S8x1x32x64 : Shape := ⟨4, ![8, 1, 32, 64]⟩
abbrev S256x2 : Shape := ⟨2, ![256, 2]⟩
abbrev S256x2x1 : Shape := ⟨3, ![256, 2, 1]⟩
abbrev S256x32x1 : Shape := ⟨3, ![256, 32, 1]⟩
abbrev S8x32x32x1 : Shape := ⟨4, ![8, 32, 32, 1]⟩
abbrev S1x32x32 : Shape := ⟨3, ![1, 32, 32]⟩
abbrev S256x32x32 : Shape := ⟨3, ![256, 32, 32]⟩
abbrev S8x32x32 : Shape := ⟨3, ![8, 32, 32]⟩
abbrev S256x32 : Shape := ⟨2, ![256, 32]⟩
abbrev S1x2x32 : Shape := ⟨3, ![1, 2, 32]⟩
abbrev S256x2x32 : Shape := ⟨3, ![256, 2, 32]⟩
abbrev S8x2x32 : Shape := ⟨3, ![8, 2, 32]⟩
abbrev S8x1x2x64 : Shape := ⟨4, ![8, 1, 2, 64]⟩
abbrev S8x32x2x1 : Shape := ⟨4, ![8, 32, 2, 1]⟩
abbrev S8x2x1 : Shape := ⟨3, ![8, 2, 1]⟩
abbrev S8x1x2x1 : Shape := ⟨4, ![8, 1, 2, 1]⟩
abbrev S8x1x1 : Shape := ⟨3, ![8, 1, 1]⟩
abbrev S8x1x1x1 : Shape := ⟨4, ![8, 1, 1, 1]⟩

abbrev nBuf : Space → Nat
  | .hbm => 19
  | .vmem => 21
  | .smem => 0
  | _ => 0

abbrev bufTy : (tb : Table) → Fin (tcTables nBuf tb) → BufTy
  | .hbm, ⟨0, _⟩ => ⟨S1024x64x32x2, .f32⟩
  | .hbm, ⟨1, _⟩ => ⟨S32x2, .f32⟩
  | .hbm, ⟨2, _⟩ => ⟨S32x2, .f32⟩
  | .hbm, ⟨3, _⟩ => ⟨S32x2, .f32⟩
  | .hbm, ⟨4, _⟩ => ⟨S32x32, .f32⟩
  | .hbm, ⟨5, _⟩ => ⟨S32x32, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S2x32, .f32⟩
  | .hbm, ⟨14, _⟩ => ⟨S2x32, .f32⟩
  | .hbm, ⟨15, _⟩ => ⟨S2x32, .f32⟩
  | .hbm, ⟨16, _⟩ => ⟨S1024x32x2x64, .f32⟩
  | .hbm, ⟨17, _⟩ => ⟨S1024x32x2x64, .f32⟩
  | .hbm, ⟨18, _⟩ => ⟨S1024x64x32x2, .f32⟩
  | .local _ .vmem, ⟨0, _⟩ => ⟨S8x32x2x64, .f32⟩
  | .local _ .vmem, ⟨1, _⟩ => ⟨S8x32x2x64, .f32⟩
  | .local _ .vmem, ⟨2, _⟩ => ⟨S32x2, .f32⟩
  | .local _ .vmem, ⟨3, _⟩ => ⟨S32x2, .f32⟩
  | .local _ .vmem, ⟨4, _⟩ => ⟨S32x2, .f32⟩
  | .local _ .vmem, ⟨5, _⟩ => ⟨S32x32, .f32⟩
  | .local _ .vmem, ⟨6, _⟩ => ⟨S32x32, .f32⟩
  | .local _ .vmem, ⟨7, _⟩ => ⟨S32x32, .f32⟩
  | .local _ .vmem, ⟨8, _⟩ => ⟨S32x32, .f32⟩
  | .local _ .vmem, ⟨9, _⟩ => ⟨S32x32, .f32⟩
  | .local _ .vmem, ⟨10, _⟩ => ⟨S32x32, .f32⟩
  | .local _ .vmem, ⟨11, _⟩ => ⟨S32x32, .f32⟩
  | .local _ .vmem, ⟨12, _⟩ => ⟨S32x32, .f32⟩
  | .local _ .vmem, ⟨13, _⟩ => ⟨S32x32, .f32⟩
  | .local _ .vmem, ⟨14, _⟩ => ⟨S2x32, .f32⟩
  | .local _ .vmem, ⟨15, _⟩ => ⟨S2x32, .f32⟩
  | .local _ .vmem, ⟨16, _⟩ => ⟨S2x32, .f32⟩
  | .local _ .vmem, ⟨17, _⟩ => ⟨S8x32x2x64, .f32⟩
  | .local _ .vmem, ⟨18, _⟩ => ⟨S8x32x2x64, .f32⟩
  | .local _ .vmem, ⟨19, _⟩ => ⟨S8x32x32x64, .f32⟩
  | .local _ .vmem, ⟨20, _⟩ => ⟨S8x32x32x64, .f32⟩
  | _, _ => ⟨S1024x64x32x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x32x2x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S8x32x2x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S1024x64x32x2_S1024x32x2x64_0_2_3_1 : S1024x64x32x2.Transposes [0, 2, 3, 1] S1024x32x2x64
  inb_S8x32x2x64_S8x32x2x64_0_0_0_0 : ∀ a, (![0, 0, 0, 0] : Fin 4 → Nat) a + S8x32x2x64.size a ≤ S8x32x2x64.size a
  h_S8x32x2x64 : 0 < S8x32x2x64.numel
  shapeCasts_S8x32x2x64_S8x32x2x64 : S8x32x2x64.ShapeCasts S8x32x2x64
  inb_S32x2_S32x2_0_0 : ∀ a, (![0, 0] : Fin 2 → Nat) a + S32x2.size a ≤ S32x2.size a
  h_S32x2 : 0 < S32x2.numel
  shapeCasts_S8x32x2x64_S256x2x64 : S8x32x2x64.ShapeCasts S256x2x64
  shapeCasts_S32x2_S1x32x2 : S32x2.ShapeCasts S1x32x2
  broadcasts_S1x32x2_S256x32x2 : S1x32x2.Broadcasts S256x32x2
  shapeCasts_S256x32x64_S8x32x32x64 : S256x32x64.ShapeCasts S8x32x32x64
  reduces_S8x32x2x64_S8x2x64 : S8x32x2x64.Reduces [1] S8x2x64
  broadcasts_S1x32x2_S8x32x2 : S1x32x2.Broadcasts S8x32x2
  shapeCasts_S8x32x64_S8x1x32x64 : S8x32x64.ShapeCasts S8x1x32x64
  shapeCasts_S8x1x32x64_S8x1x32x64 : S8x1x32x64.ShapeCasts S8x1x32x64
  broadcasts_S8x1x32x64_S8x32x32x64 : S8x1x32x64.Broadcasts S8x32x32x64
  reduces_S256x2x64_S256x2 : S256x2x64.Reduces [2] S256x2
  shapeCasts_S256x2_S256x2x1 : S256x2.ShapeCasts S256x2x1
  shapeCasts_S256x32x1_S8x32x32x1 : S256x32x1.ShapeCasts S8x32x32x1
  shapeCasts_S8x32x32x1_S8x32x32x1 : S8x32x32x1.ShapeCasts S8x32x32x1
  broadcasts_S8x32x32x1_S8x32x32x64 : S8x32x32x1.Broadcasts S8x32x32x64
  inb_S8x32x32x64_S8x32x32x64_0_0_0_0 : ∀ a, (![0, 0, 0, 0] : Fin 4 → Nat) a + S8x32x32x64.size a ≤ S8x32x32x64.size a
  h_S8x32x32x64 : 0 < S8x32x32x64.numel
  shapeCasts_S8x32x32x64_S8x32x32x64 : S8x32x32x64.ShapeCasts S8x32x32x64
  inb_S32x32_S32x32_0_0 : ∀ a, (![0, 0] : Fin 2 → Nat) a + S32x32.size a ≤ S32x32.size a
  h_S32x32 : 0 < S32x32.numel
  shapeCasts_S8x32x32x64_S256x32x64 : S8x32x32x64.ShapeCasts S256x32x64
  shapeCasts_S32x32_S1x32x32 : S32x32.ShapeCasts S1x32x32
  broadcasts_S1x32x32_S256x32x32 : S1x32x32.Broadcasts S256x32x32
  reduces_S8x32x32x64_S8x32x64 : S8x32x32x64.Reduces [1] S8x32x64
  broadcasts_S1x32x32_S8x32x32 : S1x32x32.Broadcasts S8x32x32
  reduces_S256x32x64_S256x32 : S256x32x64.Reduces [2] S256x32
  shapeCasts_S256x32_S256x32x1 : S256x32.ShapeCasts S256x32x1
  inb_S2x32_S2x32_0_0 : ∀ a, (![0, 0] : Fin 2 → Nat) a + S2x32.size a ≤ S2x32.size a
  h_S2x32 : 0 < S2x32.numel
  shapeCasts_S2x32_S1x2x32 : S2x32.ShapeCasts S1x2x32
  broadcasts_S1x2x32_S256x2x32 : S1x2x32.Broadcasts S256x2x32
  shapeCasts_S256x2x64_S8x32x2x64 : S256x2x64.ShapeCasts S8x32x2x64
  broadcasts_S1x2x32_S8x2x32 : S1x2x32.Broadcasts S8x2x32
  shapeCasts_S8x2x64_S8x1x2x64 : S8x2x64.ShapeCasts S8x1x2x64
  shapeCasts_S8x1x2x64_S8x1x2x64 : S8x1x2x64.ShapeCasts S8x1x2x64
  broadcasts_S8x1x2x64_S8x32x2x64 : S8x1x2x64.Broadcasts S8x32x2x64
  shapeCasts_S256x2x1_S8x32x2x1 : S256x2x1.ShapeCasts S8x32x2x1
  shapeCasts_S8x32x2x1_S8x32x2x1 : S8x32x2x1.ShapeCasts S8x32x2x1
  broadcasts_S8x32x2x1_S8x32x2x64 : S8x32x2x1.Broadcasts S8x32x2x64
  reduces_S8x32x2x64_S8x32x2 : S8x32x2x64.Reduces [3] S8x32x2
  shapeCasts_S8x32x2_S8x32x2x1 : S8x32x2.ShapeCasts S8x32x2x1
  reduces_S8x32x2x1_S8x2x1 : S8x32x2x1.Reduces [1] S8x2x1
  shapeCasts_S8x2x1_S8x1x2x1 : S8x2x1.ShapeCasts S8x1x2x1
  reduces_S8x1x2x1_S8x1x1 : S8x1x2x1.Reduces [2] S8x1x1
  shapeCasts_S8x1x1_S8x1x1x1 : S8x1x1.ShapeCasts S8x1x1x1
  broadcasts_S8x1x1x1_S8x32x2x64 : S8x1x1x1.Broadcasts S8x32x2x64
  transposes_S1024x32x2x64_S1024x64x32x2_0_3_1_2 : S1024x32x2x64.Transposes [0, 3, 1, 2] S1024x64x32x2
  dot_S256x32x2_S256x2x64_S256x32x64_2_1_1_2_0_0_wf : DotDims.WF S256x32x2 S256x2x64 S256x32x64 [2] [1] [1] [2] [0] [0]
  dot_S8x32x2_S8x2x64_S8x32x64_2_1_1_2_0_0_wf : DotDims.WF S8x32x2 S8x2x64 S8x32x64 [2] [1] [1] [2] [0] [0]
  dot_S256x32x2_S256x2x1_S256x32x1_2_1_1_2_0_0_wf : DotDims.WF S256x32x2 S256x2x1 S256x32x1 [2] [1] [1] [2] [0] [0]
  dot_S256x32x32_S256x32x64_S256x32x64_2_1_1_2_0_0_wf : DotDims.WF S256x32x32 S256x32x64 S256x32x64 [2] [1] [1] [2] [0] [0]
  dot_S8x32x32_S8x32x64_S8x32x64_2_1_1_2_0_0_wf : DotDims.WF S8x32x32 S8x32x64 S8x32x64 [2] [1] [1] [2] [0] [0]
  dot_S256x32x32_S256x32x1_S256x32x1_2_1_1_2_0_0_wf : DotDims.WF S256x32x32 S256x32x1 S256x32x1 [2] [1] [1] [2] [0] [0]
  dot_S256x2x32_S256x32x64_S256x2x64_2_1_1_2_0_0_wf : DotDims.WF S256x2x32 S256x32x64 S256x2x64 [2] [1] [1] [2] [0] [0]
  dot_S8x2x32_S8x32x64_S8x2x64_2_1_1_2_0_0_wf : DotDims.WF S8x2x32 S8x32x64 S8x2x64 [2] [1] [1] [2] [0] [0]
  dot_S256x2x32_S256x32x1_S256x2x1_2_1_1_2_0_0_wf : DotDims.WF S256x2x32 S256x32x1 S256x2x1 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x2x64.size a ≤ S1024x32x2x64.size a
  hwx0_0 : ∀ i : grid0.Coords, EltTy.bits .f32 = 32 ∨ (Rect.block (s := S1024x32x2x64) S8x32x2x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x2.size a ≤ S32x2.size a
  hwx0_1 : ∀ i : grid0.Coords, EltTy.bits .f32 = 32 ∨ (Rect.block (s := S32x2) S32x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x2.size a ≤ S32x2.size a
  hwx0_2 : ∀ i : grid0.Coords, EltTy.bits .f32 = 32 ∨ (Rect.block (s := S32x2) S32x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x2.size a ≤ S32x2.size a
  hwx0_3 : ∀ i : grid0.Coords, EltTy.bits .f32 = 32 ∨ (Rect.block (s := S32x2) S32x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .f32 = 32 ∨ (Rect.block (s := S32x32) S32x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x32.size a ≤ S32x32.size a
  hwx0_10 : ∀ i : grid0.Coords, EltTy.bits .f32 = 32 ∨ (Rect.block (s := S32x32) S32x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x32.size a ≤ S32x32.size a
  hwx0_11 : ∀ i : grid0.Coords, EltTy.bits .f32 = 32 ∨ (Rect.block (s := S32x32) S32x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x32.size a ≤ S32x32.size a
  hwx0_12 : ∀ i : grid0.Coords, EltTy.bits .f32 = 32 ∨ (Rect.block (s := S32x32) S32x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2x32.size a ≤ S2x32.size a
  hwx0_13 : ∀ i : grid0.Coords, EltTy.bits .f32 = 32 ∨ (Rect.block (s := S2x32) S2x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2x32.size a ≤ S2x32.size a
  hwx0_14 : ∀ i : grid0.Coords, EltTy.bits .f32 = 32 ∨ (Rect.block (s := S2x32) S2x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2x32.size a ≤ S2x32.size a
  hwx0_15 : ∀ i : grid0.Coords, EltTy.bits .f32 = 32 ∨ (Rect.block (s := S2x32) S2x32.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S8x32x2x64.size a ≤ S1024x32x2x64.size a
  hwx0_16 : ∀ i : grid0.Coords, EltTy.bits .f32 = 32 ∨ (Rect.block (s := S1024x32x2x64) S8x32x2x64.size (cc0_transform_16 i) (hinb0_16 i)).WholeWords (EltTy.packing .f32)

variable [Facts₀]

def dot_S256x32x2_S256x2x64_S256x32x64_2_1_1_2_0_0 : DotDims S256x32x2 S256x2x64 S256x32x64 where
  lhsContracting := [2]
  rhsContracting := [1]
  lhsNonContracting := [1]
  rhsNonContracting := [2]
  lhsBatch := [0]
  rhsBatch := [0]
  wf := dot_S256x32x2_S256x2x64_S256x32x64_2_1_1_2_0_0_wf
def dot_S8x32x2_S8x2x64_S8x32x64_2_1_1_2_0_0 : DotDims S8x32x2 S8x2x64 S8x32x64 where
  lhsContracting := [2]
  rhsContracting := [1]
  lhsNonContracting := [1]
  rhsNonContracting := [2]
  lhsBatch := [0]
  rhsBatch := [0]
  wf := dot_S8x32x2_S8x2x64_S8x32x64_2_1_1_2_0_0_wf
def dot_S256x32x2_S256x2x1_S256x32x1_2_1_1_2_0_0 : DotDims S256x32x2 S256x2x1 S256x32x1 where
  lhsContracting := [2]
  rhsContracting := [1]
  lhsNonContracting := [1]
  rhsNonContracting := [2]
  lhsBatch := [0]
  rhsBatch := [0]
  wf := dot_S256x32x2_S256x2x1_S256x32x1_2_1_1_2_0_0_wf
def dot_S256x32x32_S256x32x64_S256x32x64_2_1_1_2_0_0 : DotDims S256x32x32 S256x32x64 S256x32x64 where
  lhsContracting := [2]
  rhsContracting := [1]
  lhsNonContracting := [1]
  rhsNonContracting := [2]
  lhsBatch := [0]
  rhsBatch := [0]
  wf := dot_S256x32x32_S256x32x64_S256x32x64_2_1_1_2_0_0_wf
def dot_S8x32x32_S8x32x64_S8x32x64_2_1_1_2_0_0 : DotDims S8x32x32 S8x32x64 S8x32x64 where
  lhsContracting := [2]
  rhsContracting := [1]
  lhsNonContracting := [1]
  rhsNonContracting := [2]
  lhsBatch := [0]
  rhsBatch := [0]
  wf := dot_S8x32x32_S8x32x64_S8x32x64_2_1_1_2_0_0_wf
def dot_S256x32x32_S256x32x1_S256x32x1_2_1_1_2_0_0 : DotDims S256x32x32 S256x32x1 S256x32x1 where
  lhsContracting := [2]
  rhsContracting := [1]
  lhsNonContracting := [1]
  rhsNonContracting := [2]
  lhsBatch := [0]
  rhsBatch := [0]
  wf := dot_S256x32x32_S256x32x1_S256x32x1_2_1_1_2_0_0_wf
def dot_S256x2x32_S256x32x64_S256x2x64_2_1_1_2_0_0 : DotDims S256x2x32 S256x32x64 S256x2x64 where
  lhsContracting := [2]
  rhsContracting := [1]
  lhsNonContracting := [1]
  rhsNonContracting := [2]
  lhsBatch := [0]
  rhsBatch := [0]
  wf := dot_S256x2x32_S256x32x64_S256x2x64_2_1_1_2_0_0_wf
def dot_S8x2x32_S8x32x64_S8x2x64_2_1_1_2_0_0 : DotDims S8x2x32 S8x32x64 S8x2x64 where
  lhsContracting := [2]
  rhsContracting := [1]
  lhsNonContracting := [1]
  rhsNonContracting := [2]
  lhsBatch := [0]
  rhsBatch := [0]
  wf := dot_S8x2x32_S8x32x64_S8x2x64_2_1_1_2_0_0_wf
def dot_S256x2x32_S256x32x1_S256x2x1_2_1_1_2_0_0 : DotDims S256x2x32 S256x32x1 S256x2x1 where
  lhsContracting := [2]
  rhsContracting := [1]
  lhsNonContracting := [1]
  rhsNonContracting := [2]
  lhsBatch := [0]
  rhsBatch := [0]
  wf := dot_S256x2x32_S256x32x1_S256x2x1_2_1_1_2_0_0_wf

abbrev win0_0 : Pipeline.Window sig grid0 :=
  Pipeline.Window.ofSpec (Memref.whole main_v0) S8x32x2x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S32x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S32x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S32x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S2x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S2x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S2x32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v1) S8x32x2x64.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S1024x64x32x2 : Shape := ⟨4, ![1024, 64, 32, 2]⟩
abbrev S32x2 : Shape := ⟨2, ![32, 2]⟩
abbrev S32x32 : Shape := ⟨2, ![32, 32]⟩
abbrev S2x32 : Shape := ⟨2, ![2, 32]⟩
abbrev S_ : Shape := ⟨0, ![]⟩
abbrev S1024x64x2 : Shape := ⟨3, ![1024, 64, 2]⟩
abbrev S1024x32x2 : Shape := ⟨3, ![1024, 32, 2]⟩
abbrev S1024x64x32x32 : Shape := ⟨4, ![1024, 64, 32, 32]⟩
abbrev S1024x64x32 : Shape := ⟨3, ![1024, 64, 32]⟩
abbrev S1024x64x1x32 : Shape := ⟨4, ![1024, 64, 1, 32]⟩
abbrev S1024x32x32 : Shape := ⟨3, ![1024, 32, 32]⟩
abbrev S1024x1x32x32 : Shape := ⟨4, ![1024, 1, 32, 32]⟩
abbrev S1024x64x1x2 : Shape := ⟨4, ![1024, 64, 1, 2]⟩
abbrev S1024x1x32x2 : Shape := ⟨4, ![1024, 1, 32, 2]⟩
abbrev S1024 : Shape := ⟨1, ![1024]⟩
abbrev S1024x1x1x1 : Shape := ⟨4, ![1024, 1, 1, 1]⟩

abbrev nBuf : Space → Nat
  | .hbm => 103
  | .vmem => 0
  | .smem => 0
  | _ => 0

abbrev bufTy : (tb : Table) → Fin (tcTables nBuf tb) → BufTy
  | .hbm, ⟨0, _⟩ => ⟨S1024x64x32x2, .f32⟩
  | .hbm, ⟨1, _⟩ => ⟨S32x2, .f32⟩
  | .hbm, ⟨2, _⟩ => ⟨S32x2, .f32⟩
  | .hbm, ⟨3, _⟩ => ⟨S32x2, .f32⟩
  | .hbm, ⟨4, _⟩ => ⟨S32x32, .f32⟩
  | .hbm, ⟨5, _⟩ => ⟨S32x32, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S2x32, .f32⟩
  | .hbm, ⟨14, _⟩ => ⟨S2x32, .f32⟩
  | .hbm, ⟨15, _⟩ => ⟨S2x32, .f32⟩
  | .hbm, ⟨16, _⟩ => ⟨S_, .f32⟩
  | .hbm, ⟨17, _⟩ => ⟨S1024x64x2, .f32⟩
  | .hbm, ⟨18, _⟩ => ⟨S_, .f32⟩
  | .hbm, ⟨19, _⟩ => ⟨S1024x32x2, .f32⟩
  | .hbm, ⟨20, _⟩ => ⟨S1024x64x32x32, .f32⟩
  | .hbm, ⟨21, _⟩ => ⟨S1024x64x32, .f32⟩
  | .hbm, ⟨22, _⟩ => ⟨S1024x64x1x32, .f32⟩
  | .hbm, ⟨23, _⟩ => ⟨S1024x64x32x32, .f32⟩
  | .hbm, ⟨24, _⟩ => ⟨S1024x64x32x32, .f32⟩
  | .hbm, ⟨25, _⟩ => ⟨S1024x32x32, .f32⟩
  | .hbm, ⟨26, _⟩ => ⟨S1024x1x32x32, .f32⟩
  | .hbm, ⟨27, _⟩ => ⟨S1024x64x32x32, .f32⟩
  | .hbm, ⟨28, _⟩ => ⟨S1024x64x32x32, .f32⟩
  | .hbm, ⟨29, _⟩ => ⟨S_, .f32⟩
  | .hbm, ⟨30, _⟩ => ⟨S1024x64x32x32, .f32⟩
  | .hbm, ⟨31, _⟩ => ⟨S1024x64x32x32, .f32⟩
  | .hbm, ⟨32, _⟩ => ⟨S_, .f32⟩
  | .hbm, ⟨33, _⟩ => ⟨S1024x64x32, .f32⟩
  | .hbm, ⟨34, _⟩ => ⟨S_, .f32⟩
  | .hbm, ⟨35, _⟩ => ⟨S1024x32x32, .f32⟩
  | .hbm, ⟨36, _⟩ => ⟨S1024x64x32x32, .f32⟩
  | .hbm, ⟨37, _⟩ => ⟨S1024x64x32, .f32⟩
  | .hbm, ⟨38, _⟩ => ⟨S1024x64x1x32, .f32⟩
  | .hbm, ⟨39, _⟩ => ⟨S1024x64x32x32, .f32⟩
  | .hbm, ⟨40, _⟩ => ⟨S1024x64x32x32, .f32⟩
  | .hbm, ⟨41, _⟩ => ⟨S1024x32x32, .f32⟩
  | .hbm, ⟨42, _⟩ => ⟨S1024x1x32x32, .f32⟩
  | .hbm, ⟨43, _⟩ => ⟨S1024x64x32x32, .f32⟩
  | .hbm, ⟨44, _⟩ => ⟨S1024x64x32x32, .f32⟩
  | .hbm, ⟨45, _⟩ => ⟨S_, .f32⟩
  | .hbm, ⟨46, _⟩ => ⟨S1024x64x32x32, .f32⟩
  | .hbm, ⟨47, _⟩ => ⟨S1024x64x32x32, .f32⟩
  | .hbm, ⟨48, _⟩ => ⟨S_, .f32⟩
  | .hbm, ⟨49, _⟩ => ⟨S1024x64x32, .f32⟩
  | .hbm, ⟨50, _⟩ => ⟨S_, .f32⟩
  | .hbm, ⟨51, _⟩ => ⟨S1024x32x32, .f32⟩
  | .hbm, ⟨52, _⟩ => ⟨S1024x64x32x32, .f32⟩
  | .hbm, ⟨53, _⟩ => ⟨S1024x64x32, .f32⟩
  | .hbm, ⟨54, _⟩ => ⟨S1024x64x1x32, .f32⟩
  | .hbm, ⟨55, _⟩ => ⟨S1024x64x32x32, .f32⟩
  | .hbm, ⟨56, _⟩ => ⟨S1024x64x32x32, .f32⟩
  | .hbm, ⟨57, _⟩ => ⟨S1024x32x32, .f32⟩
  | .hbm, ⟨58, _⟩ => ⟨S1024x1x32x32, .f32⟩
  | .hbm, ⟨59, _⟩ => ⟨S1024x64x32x32, .f32⟩
  | .hbm, ⟨60, _⟩ => ⟨S1024x64x32x32, .f32⟩
  | .hbm, ⟨61, _⟩ => ⟨S_, .f32⟩
  | .hbm, ⟨62, _⟩ => ⟨S1024x64x32x32, .f32⟩
  | .hbm, ⟨63, _⟩ => ⟨S1024x64x32x32, .f32⟩
  | .hbm, ⟨64, _⟩ => ⟨S_, .f32⟩
  | .hbm, ⟨65, _⟩ => ⟨S1024x64x32, .f32⟩
  | .hbm, ⟨66, _⟩ => ⟨S_, .f32⟩
  | .hbm, ⟨67, _⟩ => ⟨S1024x32x32, .f32⟩
  | .hbm, ⟨68, _⟩ => ⟨S1024x64x32x32, .f32⟩
  | .hbm, ⟨69, _⟩ => ⟨S1024x64x32, .f32⟩
  | .hbm, ⟨70, _⟩ => ⟨S1024x64x1x32, .f32⟩
  | .hbm, ⟨71, _⟩ => ⟨S1024x64x32x32, .f32⟩
  | .hbm, ⟨72, _⟩ => ⟨S1024x64x32x32, .f32⟩
  | .hbm, ⟨73, _⟩ => ⟨S1024x32x32, .f32⟩
  | .hbm, ⟨74, _⟩ => ⟨S1024x1x32x32, .f32⟩
  | .hbm, ⟨75, _⟩ => ⟨S1024x64x32x32, .f32⟩
  | .hbm, ⟨76, _⟩ => ⟨S1024x64x32x32, .f32⟩
  | .hbm, ⟨77, _⟩ => ⟨S_, .f32⟩
  | .hbm, ⟨78, _⟩ => ⟨S1024x64x32x32, .f32⟩
  | .hbm, ⟨79, _⟩ => ⟨S1024x64x32x32, .f32⟩
  | .hbm, ⟨80, _⟩ => ⟨S_, .f32⟩
  | .hbm, ⟨81, _⟩ => ⟨S1024x64x32, .f32⟩
  | .hbm, ⟨82, _⟩ => ⟨S_, .f32⟩
  | .hbm, ⟨83, _⟩ => ⟨S1024x32x32, .f32⟩
  | .hbm, ⟨84, _⟩ => ⟨S1024x64x32x2, .f32⟩
  | .hbm, ⟨85, _⟩ => ⟨S1024x64x2, .f32⟩
  | .hbm, ⟨86, _⟩ => ⟨S1024x64x1x2, .f32⟩
  | .hbm, ⟨87, _⟩ => ⟨S1024x64x32x2, .f32⟩
  | .hbm, ⟨88, _⟩ => ⟨S1024x64x32x2, .f32⟩
  | .hbm, ⟨89, _⟩ => ⟨S1024x32x2, .f32⟩
  | .hbm, ⟨90, _⟩ => ⟨S1024x1x32x2, .f32⟩
  | .hbm, ⟨91, _⟩ => ⟨S1024x64x32x2, .f32⟩
  | .hbm, ⟨92, _⟩ => ⟨S1024x64x32x2, .f32⟩
  | .hbm, ⟨93, _⟩ => ⟨S1024x64x32x2, .f32⟩
  | .hbm, ⟨94, _⟩ => ⟨S_, .f32⟩
  | .hbm, ⟨95, _⟩ => ⟨S1024, .f32⟩
  | .hbm, ⟨96, _⟩ => ⟨S1024x1x1x1, .f32⟩
  | .hbm, ⟨97, _⟩ => ⟨S_, .f32⟩
  | .hbm, ⟨98, _⟩ => ⟨S1024x1x1x1, .f32⟩
  | .hbm, ⟨99, _⟩ => ⟨S1024x1x1x1, .f32⟩
  | .hbm, ⟨100, _⟩ => ⟨S1024x1x1x1, .f32⟩
  | .hbm, ⟨101, _⟩ => ⟨S1024x64x32x2, .f32⟩
  | .hbm, ⟨102, _⟩ => ⟨S1024x64x32x2, .f32⟩
  | _, _ => ⟨S1024x64x32x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call0_cst : Ref sig .tc := ⟨.hbm, 29, rfl⟩
abbrev main_call0_v0 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_cst : Ref sig .tc := ⟨.hbm, 45, rfl⟩
abbrev main_call1_v0 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_cst_4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call2_cst : Ref sig .tc := ⟨.hbm, 61, rfl⟩
abbrev main_call2_v0 : Ref sig .tc := ⟨.hbm, 62, rfl⟩
abbrev main_v35 : Ref sig .tc := ⟨.hbm, 63, rfl⟩
abbrev main_cst_5 : Ref sig .tc := ⟨.hbm, 64, rfl⟩
abbrev main_v36 : Ref sig .tc := ⟨.hbm, 65, rfl⟩
abbrev main_cst_6 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call3_cst : Ref sig .tc := ⟨.hbm, 77, rfl⟩
abbrev main_call3_v0 : Ref sig .tc := ⟨.hbm, 78, rfl⟩
abbrev main_v47 : Ref sig .tc := ⟨.hbm, 79, rfl⟩
abbrev main_cst_7 : Ref sig .tc := ⟨.hbm, 80, rfl⟩
abbrev main_v48 : Ref sig .tc := ⟨.hbm, 81, rfl⟩
abbrev main_cst_8 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_9 : Ref sig .tc := ⟨.hbm, 94, rfl⟩
abbrev main_v60 : Ref sig .tc := ⟨.hbm, 95, rfl⟩
abbrev main_v61 : Ref sig .tc := ⟨.hbm, 96, rfl⟩
abbrev main_cst_10 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩

abbrev nD : Nat := 1
abbrev τ : Topo := Topo.v7x

variable {F : FTy → Type} [FloatOps F]

class Facts₀ : Prop where
  reducesTo_S1024x64x32x2_S1024x64x2_d2 : S1024x64x32x2.ReducesTo [2] S1024x64x2
  h_S_ : 0 < S_.numel
  reducesTo_S1024x64x32x2_S1024x32x2_d1 : S1024x64x32x2.ReducesTo [1] S1024x32x2
  bcast_S1024x64x32_S1024x64x1x32_0_1_3 : S1024x64x32.BroadcastsInDim S1024x64x1x32 (![0, 1, 3] : Fin 3 → Fin S1024x64x1x32.rank)
  bcast_S1024x64x1x32_S1024x64x32x32_0_1_2_3 : S1024x64x1x32.BroadcastsInDim S1024x64x32x32 (![0, 1, 2, 3] : Fin 4 → Fin S1024x64x32x32.rank)
  bcast_S1024x32x32_S1024x1x32x32_0_2_3 : S1024x32x32.BroadcastsInDim S1024x1x32x32 (![0, 2, 3] : Fin 3 → Fin S1024x1x32x32.rank)
  bcast_S1024x1x32x32_S1024x64x32x32_0_1_2_3 : S1024x1x32x32.BroadcastsInDim S1024x64x32x32 (![0, 1, 2, 3] : Fin 4 → Fin S1024x64x32x32.rank)
  bcast_S_S1024x64x32x32 : S_.BroadcastsInDim S1024x64x32x32 (![] : Fin 0 → Fin S1024x64x32x32.rank)
  reducesTo_S1024x64x32x32_S1024x64x32_d2 : S1024x64x32x32.ReducesTo [2] S1024x64x32
  reducesTo_S1024x64x32x32_S1024x32x32_d1 : S1024x64x32x32.ReducesTo [1] S1024x32x32
  bcast_S1024x64x2_S1024x64x1x2_0_1_3 : S1024x64x2.BroadcastsInDim S1024x64x1x2 (![0, 1, 3] : Fin 3 → Fin S1024x64x1x2.rank)
  bcast_S1024x64x1x2_S1024x64x32x2_0_1_2_3 : S1024x64x1x2.BroadcastsInDim S1024x64x32x2 (![0, 1, 2, 3] : Fin 4 → Fin S1024x64x32x2.rank)
  bcast_S1024x32x2_S1024x1x32x2_0_2_3 : S1024x32x2.BroadcastsInDim S1024x1x32x2 (![0, 2, 3] : Fin 3 → Fin S1024x1x32x2.rank)
  bcast_S1024x1x32x2_S1024x64x32x2_0_1_2_3 : S1024x1x32x2.BroadcastsInDim S1024x64x32x2 (![0, 1, 2, 3] : Fin 4 → Fin S1024x64x32x2.rank)
  reducesTo_S1024x64x32x2_S1024_d1_2_3 : S1024x64x32x2.ReducesTo [1, 2, 3] S1024
  bcast_S1024_S1024x1x1x1_0 : S1024.BroadcastsInDim S1024x1x1x1 (![0] : Fin 1 → Fin S1024x1x1x1.rank)
  bcast_S_S1024x1x1x1 : S_.BroadcastsInDim S1024x1x1x1 (![] : Fin 0 → Fin S1024x1x1x1.rank)
  bcast_S1024x1x1x1_S1024x64x32x2_0_1_2_3 : S1024x1x1x1.BroadcastsInDim S1024x64x32x2 (![0, 1, 2, 3] : Fin 4 → Fin S1024x64x32x2.rank)
  dot_S1024x64x32x2_S32x2_S1024x64x32x32_3_1_012_0_n_n_wf : DotDims.WF S1024x64x32x2 S32x2 S1024x64x32x32 [3] [1] [0, 1, 2] [0] [] []
  dot_S1024x64x2_S32x2_S1024x64x32_2_1_01_0_n_n_wf : DotDims.WF S1024x64x2 S32x2 S1024x64x32 [2] [1] [0, 1] [0] [] []
  dot_S1024x32x2_S32x2_S1024x32x32_2_1_01_0_n_n_wf : DotDims.WF S1024x32x2 S32x2 S1024x32x32 [2] [1] [0, 1] [0] [] []
  dot_S1024x64x32x32_S32x32_S1024x64x32x32_3_1_012_0_n_n_wf : DotDims.WF S1024x64x32x32 S32x32 S1024x64x32x32 [3] [1] [0, 1, 2] [0] [] []
  dot_S1024x64x32_S32x32_S1024x64x32_2_1_01_0_n_n_wf : DotDims.WF S1024x64x32 S32x32 S1024x64x32 [2] [1] [0, 1] [0] [] []
  dot_S1024x32x32_S32x32_S1024x32x32_2_1_01_0_n_n_wf : DotDims.WF S1024x32x32 S32x32 S1024x32x32 [2] [1] [0, 1] [0] [] []
  dot_S1024x64x32x32_S2x32_S1024x64x32x2_3_1_012_0_n_n_wf : DotDims.WF S1024x64x32x32 S2x32 S1024x64x32x2 [3] [1] [0, 1, 2] [0] [] []
  dot_S1024x64x32_S2x32_S1024x64x2_2_1_01_0_n_n_wf : DotDims.WF S1024x64x32 S2x32 S1024x64x2 [2] [1] [0, 1] [0] [] []
  dot_S1024x32x32_S2x32_S1024x32x2_2_1_01_0_n_n_wf : DotDims.WF S1024x32x32 S2x32 S1024x32x2 [2] [1] [0, 1] [0] [] []

variable [Facts₀]

def dot_S1024x64x32x2_S32x2_S1024x64x32x32_3_1_012_0_n_n : DotDims S1024x64x32x2 S32x2 S1024x64x32x32 where
  lhsContracting := [3]
  rhsContracting := [1]
  lhsNonContracting := [0, 1, 2]
  rhsNonContracting := [0]
  lhsBatch := []
  rhsBatch := []
  wf := dot_S1024x64x32x2_S32x2_S1024x64x32x32_3_1_012_0_n_n_wf
def dot_S1024x64x2_S32x2_S1024x64x32_2_1_01_0_n_n : DotDims S1024x64x2 S32x2 S1024x64x32 where
  lhsContracting := [2]
  rhsContracting := [1]
  lhsNonContracting := [0, 1]
  rhsNonContracting := [0]
  lhsBatch := []
  rhsBatch := []
  wf := dot_S1024x64x2_S32x2_S1024x64x32_2_1_01_0_n_n_wf
def dot_S1024x32x2_S32x2_S1024x32x32_2_1_01_0_n_n : DotDims S1024x32x2 S32x2 S1024x32x32 where
  lhsContracting := [2]
  rhsContracting := [1]
  lhsNonContracting := [0, 1]
  rhsNonContracting := [0]
  lhsBatch := []
  rhsBatch := []
  wf := dot_S1024x32x2_S32x2_S1024x32x32_2_1_01_0_n_n_wf
def dot_S1024x64x32x32_S32x32_S1024x64x32x32_3_1_012_0_n_n : DotDims S1024x64x32x32 S32x32 S1024x64x32x32 where
  lhsContracting := [3]
  rhsContracting := [1]
  lhsNonContracting := [0, 1, 2]
  rhsNonContracting := [0]
  lhsBatch := []
  rhsBatch := []
  wf := dot_S1024x64x32x32_S32x32_S1024x64x32x32_3_1_012_0_n_n_wf
def dot_S1024x64x32_S32x32_S1024x64x32_2_1_01_0_n_n : DotDims S1024x64x32 S32x32 S1024x64x32 where
  lhsContracting := [2]
  rhsContracting := [1]
  lhsNonContracting := [0, 1]
  rhsNonContracting := [0]
  lhsBatch := []
  rhsBatch := []
  wf := dot_S1024x64x32_S32x32_S1024x64x32_2_1_01_0_n_n_wf
def dot_S1024x32x32_S32x32_S1024x32x32_2_1_01_0_n_n : DotDims S1024x32x32 S32x32 S1024x32x32 where
  lhsContracting := [2]
  rhsContracting := [1]
  lhsNonContracting := [0, 1]
  rhsNonContracting := [0]
  lhsBatch := []
  rhsBatch := []
  wf := dot_S1024x32x32_S32x32_S1024x32x32_2_1_01_0_n_n_wf
def dot_S1024x64x32x32_S2x32_S1024x64x32x2_3_1_012_0_n_n : DotDims S1024x64x32x32 S2x32 S1024x64x32x2 where
  lhsContracting := [3]
  rhsContracting := [1]
  lhsNonContracting := [0, 1, 2]
  rhsNonContracting := [0]
  lhsBatch := []
  rhsBatch := []
  wf := dot_S1024x64x32x32_S2x32_S1024x64x32x2_3_1_012_0_n_n_wf
def dot_S1024x64x32_S2x32_S1024x64x2_2_1_01_0_n_n : DotDims S1024x64x32 S2x32 S1024x64x2 where
  lhsContracting := [2]
  rhsContracting := [1]
  lhsNonContracting := [0, 1]
  rhsNonContracting := [0]
  lhsBatch := []
  rhsBatch := []
  wf := dot_S1024x64x32_S2x32_S1024x64x2_2_1_01_0_n_n_wf
def dot_S1024x32x32_S2x32_S1024x32x2_2_1_01_0_n_n : DotDims S1024x32x32 S2x32 S1024x32x2 where
  lhsContracting := [2]
  rhsContracting := [1]
  lhsNonContracting := [0, 1]
  rhsNonContracting := [0]
  lhsBatch := []
  rhsBatch := []
  wf := dot_S1024x32x32_S2x32_S1024x32x2_2_1_01_0_n_n_wf

class Facts : Prop extends Facts₀ where

variable [Facts]
-- ==== Proof.GnnSpec.lean ====
/-
  One batch element of the bipartite antenna/user network, as plain functions over the extended reals. Nothing
  here mentions a program: an activation is a function of its coordinates (antenna m, user k, feature d).

  A layer sends x[m,k,·] to
      Σ_d x[m,k,d]·Ws[o,d]  +  Σ_d (Σ_k' x[m,k',d])·Wm[o,d]  +  Σ_d (Σ_m' x[m',k,d])·Wk[o,d],
  the three terms added in this order. Four rectified layers and a fifth without rectifier are followed by the power
  normalisation z ↦ sqrt(1 / Σ z²)·z. Addition and multiplication of extended reals are commutative and associative,
  and that is all the comparison of the two programs uses: no term is ever distributed or cancelled, so no entry needs
  to be finite.
-/
import Idealize.ShloMosaic.PureOps.Ideal
import Idealize.ShloMosaic.Lib.ValueIdx

noncomputable section

namespace Cert.Gnn

open Idealize.ShloMosaic Idealize.ShloMosaic.ValueIdx
open scoped BigOperators

variable {M K Din Dout C : Type} [Fintype M] [Fintype K] [Fintype Din] [Fintype C]

/-- One layer: the edge's own features, the antenna's aggregate over users and the user's aggregate over
    antennas, each through its own weight matrix, added in that order. -/
def layer (Ws Wm Wk : Dout → Din → EReal) (x : M → K → Din → EReal) : M → K → Dout → EReal :=
  fun m k o =>
    (∑ d, x m k d * Ws o d) + (∑ d, (∑ k', x m k' d) * Wm o d) + (∑ d, (∑ m', x m' k d) * Wk o d)

/-- The rectifier, entry by entry; `zero` is the value of the zero word. -/
def relu (zero : EReal) {D : Type} (x : M → K → D → EReal) : M → K → D → EReal :=
  fun m k d => max (x m k d) zero

/-- The total power, summed antennas innermost, then users, then channels. -/
def power (z : M → K → C → EReal) : EReal := ∑ c, ∑ k, ∑ m, z m k c * z m k c

/-- The same total with channels innermost and antennas outermost: a finite sum in another order. -/
theorem power_eq (z : M → K → C → EReal) : power z = ∑ m, ∑ k, ∑ c, z m k c * z m k c :=
  calc power z = ∑ c, ∑ k, ∑ m, z m k c * z m k c := rfl
    _ = ∑ k, ∑ c, ∑ m, z m k c * z m k c := Finset.sum_comm
    _ = ∑ k, ∑ m, ∑ c, z m k c * z m k c := Finset.sum_congr rfl fun _ _ => Finset.sum_comm
    _ = ∑ m, ∑ k, ∑ c, z m k c * z m k c := Finset.sum_comm

/-- Scaling to unit total power: `sqrt(one / power)·z`; `one` is the value of the word of 1.0. -/
def normalize (one : EReal) (z : M → K → C → EReal) : M → K → C → EReal :=
  fun m k c => Ideal.sqrt (Ideal.div one (power z)) * z m k c

/-! ## The network and the whole result array -/

/-- The value of the zero word and of the word of 1.0: the same words in both programs, never evaluated. -/
def zero : EReal := Ideal.ofBits .f32 0x00000000#32
def one : EReal := Ideal.ofBits .f32 0x3F800000#32

/-- A weight array `[O, D]` as a function of its two coordinates. -/
def mat {O D : Nat} (W : (⟨2, ![O, D]⟩ : Shape).Idx → EReal) : Fin O → Fin D → EReal := fun o d => W (ix2 o d)

/-- One batch element through the network: 64 antennas, 32 users; 2 → 32 → 32 → 32 → 32 → 2 features. -/
def net (W1s W1m W1k : Fin 32 → Fin 2 → EReal) (W2s W2m W2k W3s W3m W3k W4s W4m W4k : Fin 32 → Fin 32 → EReal)
    (W5s W5m W5k : Fin 2 → Fin 32 → EReal) (x : Fin 64 → Fin 32 → Fin 2 → EReal) : Fin 64 → Fin 32 → Fin 2 → EReal :=
  normalize one (layer W5s W5m W5k (relu zero (layer W4s W4m W4k (relu zero (layer W3s W3m W3k
    (relu zero (layer W2s W2m W2k (relu zero (layer W1s W1m W1k x)))))))))

/-- The result array `[1024, 64, 32, 2]` (batch, antenna, user, channel) as one function of the sixteen argument
    arrays: batch element `b` of the input through the network. -/
def G (a0 : (⟨4, ![1024, 64, 32, 2]⟩ : Shape).Idx → EReal)
    (a1 a2 a3 : (⟨2, ![32, 2]⟩ : Shape).Idx → EReal)
    (a4 a5 a6 a7 a8 a9 a10 a11 a12 : (⟨2, ![32, 32]⟩ : Shape).Idx → EReal)
    (a13 a14 a15 : (⟨2, ![2, 32]⟩ : Shape).Idx → EReal) : (⟨4, ![1024, 64, 32, 2]⟩ : Shape).Idx → EReal :=
  fun i => net (mat a1) (mat a2) (mat a3) (mat a4) (mat a5) (mat a6) (mat a7) (mat a8) (mat a9) (mat a10) (mat a11)
    (mat a12) (mat a13) (mat a14) (mat a15)
    (fun m k d => a0 (ix4 (⟨(i 0).val, (i 0).isLt⟩ : Fin 1024) m k d))
    (⟨(i 1).val, (i 1).isLt⟩ : Fin 64) (⟨(i 2).val, (i 2).isLt⟩ : Fin 32) (⟨(i 3).val, (i 3).isLt⟩ : Fin 2)

theorem G_apply (a0 : (⟨4, ![1024, 64, 32, 2]⟩ : Shape).Idx → EReal)
    (a1 a2 a3 : (⟨2, ![32, 2]⟩ : Shape).Idx → EReal)
    (a4 a5 a6 a7 a8 a9 a10 a11 a12 : (⟨2, ![32, 32]⟩ : Shape).Idx → EReal)
    (a13 a14 a15 : (⟨2, ![2, 32]⟩ : Shape).Idx → EReal) (b : Fin 1024) (m : Fin 64) (k : Fin 32) (c : Fin 2) :
    G a0 a1 a2 a3 a4 a5 a6 a7 a8 a9 a10 a11 a12 a13 a14 a15 (ix4 b m k c)
      = net (mat a1) (mat a2) (mat a3) (mat a4) (mat a5) (mat a6) (mat a7) (mat a8) (mat a9) (mat a10) (mat a11)
          (mat a12) (mat a13) (mat a14) (mat a15) (fun m k d => a0 (ix4 b m k d)) m k c := rfl

end Cert.Gnn

end
-- ==== Proof.LibBatchedMatmul.lean ====
/-
  A batched matrix product on rank-3 operands (`einsum('nod,ndl->nol')`: an `N × O × K` left operand, an
  `N × K × L` right operand, an `N × O × L` result, dimension numbers `<[2], [1], [1], [2], [0, 0, 0, 1, 1, 2], [0], [0]>`),
  read at one entry over the extended reals.

  Whatever record of dimension numbers carries those six lists, the left operand is read at batch `n`, row `o` of the
  result index and column `k` of the contraction, the right operand at batch `n`, row `k` and column `l`; the
  contraction index is one coordinate, so the sum over it is a sum over `Fin K`. Into a zero accumulator the entry
  `(n, o, l)` of the product is therefore `∑ k, a (n, o, k) · b (n, k, l)`.
-/
import Idealize.ShloMosaic.PureOps.Ideal
import Idealize.ShloMosaic.PureOps.Ideal.Laws
import Idealize.ShloMosaic.Lib.ValueIdx

noncomputable section

namespace Cert.BatchedMatmul

open Idealize.ShloMosaic Idealize.ShloMosaic.ValueIdx
open scoped BigOperators

variable {N O K L : Nat}

/-- The six lists of dimension numbers of a product batched over the leading axis. -/
structure IsBatched (D : DotDims ⟨3, ![N, O, K]⟩ ⟨3, ![N, K, L]⟩ ⟨3, ![N, O, L]⟩) : Prop where
  lc : D.lhsContracting = [2]
  rc : D.rhsContracting = [1]
  ln : D.lhsNonContracting = [1]
  rn : D.rhsNonContracting = [2]
  lb : D.lhsBatch = [0]
  rb : D.rhsBatch = [0]

variable {D : DotDims ⟨3, ![N, O, K]⟩ ⟨3, ![N, K, L]⟩ ⟨3, ![N, O, L]⟩}

theorem IsBatched.rank_contr (h : IsBatched D) : D.contr.rank = 1 := by
  rw [D.rank_contr, h.lc]; rfl

theorem IsBatched.size_contr (h : IsBatched D) : D.contr.size ⟨0, by rw [h.rank_contr]; exact Nat.one_pos⟩ = K := by
  have e := D.size_contr 0 (by rw [h.lc]; exact Nat.one_pos)
  rw [e]
  simp only [h.lc]
  rfl

private theorem coord_congr (j : (⟨3, ![N, O, L]⟩ : Shape).Idx) :
    ∀ (a b : Nat) (ha : a < 3) (hb : b < 3), a = b → (j ⟨a, ha⟩).val = (j ⟨b, hb⟩).val :=
  fun a b ha hb e => by subst e; rfl

/-- The left operand's batch coordinate is the result's. -/
theorem IsBatched.lhs_batch (h : IsBatched D) (j : (⟨3, ![N, O, L]⟩ : Shape).Idx) (k : D.contr.Idx) :
    (D.lhsIdx j k 0).val = (j 0).val := by
  have hb : (0 : Fin (⟨3, ![N, O, K]⟩ : Shape).rank) ∈ D.lhsBatch := by rw [h.lb]; exact List.mem_singleton.mpr rfl
  unfold DotDims.lhsIdx
  rw [dif_pos hb]
  simp only [Fin.val_cast]
  exact coord_congr j _ _ _ _ (by simp [h.lb])

/-- The left operand's row is the result's row. -/
theorem IsBatched.lhs_row (h : IsBatched D) (j : (⟨3, ![N, O, L]⟩ : Shape).Idx) (k : D.contr.Idx) :
    (D.lhsIdx j k 1).val = (j 1).val := by
  have hb : (1 : Fin (⟨3, ![N, O, K]⟩ : Shape).rank) ∉ D.lhsBatch := by
    rw [h.lb]; intro hm
    exact absurd (Fin.val_eq_of_eq (List.mem_singleton.mp hm)) (Nat.succ_ne_zero 0)
  have hn : (1 : Fin (⟨3, ![N, O, K]⟩ : Shape).rank) ∈ D.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The right operand's batch coordinate is the result's. -/
theorem IsBatched.rhs_batch (h : IsBatched D) (j : (⟨3, ![N, O, L]⟩ : Shape).Idx) (k : D.contr.Idx) :
    (D.rhsIdx j k 0).val = (j 0).val := by
  have hb : (0 : Fin (⟨3, ![N, K, L]⟩ : Shape).rank) ∈ D.rhsBatch := by rw [h.rb]; exact List.mem_singleton.mpr rfl
  unfold DotDims.rhsIdx
  rw [dif_pos hb]
  simp only [Fin.val_cast]
  exact coord_congr j _ _ _ _ (by simp [h.rb])

/-- The right operand's column is the result's column. -/
theorem IsBatched.rhs_col (h : IsBatched D) (j : (⟨3, ![N, O, L]⟩ : Shape).Idx) (k : D.contr.Idx) :
    (D.rhsIdx j k 2).val = (j 2).val := by
  have hb : (2 : Fin (⟨3, ![N, K, L]⟩ : Shape).rank) ∉ D.rhsBatch := by
    rw [h.rb]; intro hm
    exact absurd (Fin.val_eq_of_eq (List.mem_singleton.mp hm)) (Nat.succ_ne_zero 1)
  have hn : (2 : Fin (⟨3, ![N, K, L]⟩ : Shape).rank) ∈ D.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

/-- The contraction index is one coordinate below `K`. -/
def IsBatched.contrEquiv (h : IsBatched D) : D.contr.Idx ≃ Fin K :=
  contrEquiv1 D K h.rank_contr h.size_contr

/-- The two operands' indices at result entry `(n, o, l)` and contraction coordinate `k`. -/
theorem IsBatched.lhsIdx_eq (h : IsBatched D) (n : Fin N) (o : Fin O) (l : Fin L) (k : Fin K) :
    D.lhsIdx (ix3 n o l) (h.contrEquiv.symm k) = ix3 n o k := by
  funext a
  apply Fin.ext
  match a with
  | ⟨0, _⟩ => exact h.lhs_batch (ix3 n o l) _
  | ⟨1, _⟩ => exact h.lhs_row (ix3 n o l) _
  | ⟨2, _⟩ =>
    show (D.lhsIdx (ix3 n o l) (h.contrEquiv.symm k) 2).val = k.val
    rw [D.lhsIdx_val_of_single h.lc]
    exact contrEquiv1_symm_val D K h.rank_contr h.size_contr k

theorem IsBatched.rhsIdx_eq (h : IsBatched D) (n : Fin N) (o : Fin O) (l : Fin L) (k : Fin K) :
    D.rhsIdx (ix3 n o l) (h.contrEquiv.symm k) = ix3 n k l := by
  funext a
  apply Fin.ext
  match a with
  | ⟨0, _⟩ => exact h.rhs_batch (ix3 n o l) _
  | ⟨1, _⟩ =>
    show (D.rhsIdx (ix3 n o l) (h.contrEquiv.symm k) 1).val = k.val
    rw [D.rhsIdx_val_of_single h.rc]
    exact contrEquiv1_symm_val D K h.rank_contr h.size_contr k
  | ⟨2, _⟩ => exact h.rhs_col (ix3 n o l) _

/-- The batched product into the zero accumulator, read at entry `(n, o, l)`: the sum over the shared axis of
    the operands' products within batch `n`. -/
theorem matmul_zero_apply (h : IsBatched D) {φ₁ φ₂ : FTy} (prec : Option ContractPrecision)
    (a : FVec Ideal ⟨3, ![N, O, K]⟩ φ₁) (b : FVec Ideal ⟨3, ![N, K, L]⟩ φ₂) (n : Fin N) (o : Fin O) (l : Fin L) :
    FloatOps.matmul D prec a b (constant ⟨3, ![N, O, L]⟩ .f32 0x00000000#32) (ix3 n o l)
      = ∑ k : Fin K, a (ix3 n o k) * b (ix3 n k l) := by
  rw [Ideal.matmul_constant_zero_apply, ← Equiv.sum_comp h.contrEquiv.symm]
  refine Finset.sum_congr rfl fun k _ => ?_
  rw [h.lhsIdx_eq, h.rhsIdx_eq]

end Cert.BatchedMatmul

end
-- ==== Proof.LibBipartiteTerms.lean ====
/-
  The three terms of one bipartite message-passing layer as a vector unit computes them on a block laid out
  (batch, user, feature, antenna) = `[8, 32, D, M]`: every product is a batched matrix product whose batch axis
  is the block's two leading axes merged (`256 = 8 · 32`, position `b · 32 + k`) or the batch axis alone, with the
  weight matrix `[O, D]` repeated along the batch.

  * the edge's own term: the block merged to `[256, D, M]`, multiplied, split back to `[8, 32, O, M]`;
  * the antenna's term: the block summed over users to `[8, D, M]`, multiplied, repeated along the user axis;
  * the user's term: the merged block summed over antennas to `[256, D]`, multiplied as a one-column operand,
    split back and repeated along the antenna axis.

  Read at entry `(b, k, o, m)` over the extended reals they are
      Σ_d x[b,k,d,m]·W[o,d],   Σ_d (Σ_k' x[b,k',d,m])·W[o,d],   Σ_d (Σ_m' x[b,k,d,m'])·W[o,d].
  The feature widths `D`, `O` and the antenna count `M` are arbitrary.
-/
import Idealize.ShloMosaic.PureOps.Ideal
import Idealize.ShloMosaic.PureOps.Ideal.Laws
import Idealize.ShloMosaic.Lib.ValueIdx
import Idealize.ShloMosaic.Lib.Pipeline.Value
import proofs.«170046_j44495861186889_2_alg».proof.Proof.LibBatchedMatmul

noncomputable section

namespace Cert.BipartiteTerms

open Idealize.ShloMosaic Idealize.ShloMosaic.ValueIdx Cert.BatchedMatmul
open scoped BigOperators

variable {α : Type} {D O M : Nat}

/-- The position of `(b, k)` on the merged leading axis. -/
def flat (b : Fin 8) (k : Fin 32) : Fin 256 := ⟨b.val * 32 + k.val, by have := b.isLt; have := k.isLt; omega⟩

/-! ## The layout operations read at an entry -/

/-- Merging the two leading axes: entry `(b·32+k, d, m)` of the merged array is entry `(b, k, d, m)`. -/
theorem merge_apply (x : (⟨4, ![8, 32, D, M]⟩ : Shape).Idx → α)
    (h : (⟨4, ![8, 32, D, M]⟩ : Shape).ShapeCasts ⟨3, ![256, D, M]⟩) (b : Fin 8) (k : Fin 32) (d : Fin D) (m : Fin M) :
    shapeCast ⟨3, ![256, D, M]⟩ x h (ix3 (flat b k) d m) = x (ix4 b k d m) := by
  refine shapeCast_apply x h _ (ix4 b k d m) ?_
  rw [Shape.rowMajor_val_four, Shape.rowMajor_val_three]
  rfl

/-- Splitting the leading axis back: entry `(b, k, o, l)` of the split array is entry `(b·32+k, o, l)`. -/
theorem split_apply (y : (⟨3, ![256, O, M]⟩ : Shape).Idx → α)
    (h : (⟨3, ![256, O, M]⟩ : Shape).ShapeCasts ⟨4, ![8, 32, O, M]⟩) (b : Fin 8) (k : Fin 32) (o : Fin O) (l : Fin M) :
    shapeCast ⟨4, ![8, 32, O, M]⟩ y h (ix4 b k o l) = y (ix3 (flat b k) o l) := by
  refine shapeCast_apply y h _ (ix3 (flat b k) o l) ?_
  rw [Shape.rowMajor_val_four, Shape.rowMajor_val_three]
  rfl

/-- A weight matrix repeated along a new leading batch axis: every batch entry is the matrix. -/
theorem repeat_apply {n : Nat} (W : (⟨2, ![O, D]⟩ : Shape).Idx → α)
    (h1 : (⟨2, ![O, D]⟩ : Shape).ShapeCasts ⟨3, ![1, O, D]⟩)
    (h2 : (⟨3, ![1, O, D]⟩ : Shape).Broadcasts ⟨3, ![n, O, D]⟩) (i : Fin n) (o : Fin O) (d : Fin D) :
    broadcastTo ⟨3, ![n, O, D]⟩ (shapeCast ⟨3, ![1, O, D]⟩ W h1) h2 (ix3 i o d) = W (ix2 o d) := by
  refine (broadcastTo_apply _ h2 _ (ix3 (0 : Fin 1) o d) fun a => ?_).trans ?_
  · match a with
    | ⟨0, _⟩ => show (0 : Nat) = if (1 : Nat) = 1 then 0 else i.val; rw [if_pos rfl]
    | ⟨1, _⟩ =>
      show o.val = if O = 1 then 0 else o.val
      have := o.isLt
      split <;> omega
    | ⟨2, _⟩ =>
      show d.val = if D = 1 then 0 else d.val
      have := d.isLt
      split <;> omega
  · refine shapeCast_apply W h1 _ (ix2 o d) ?_
    rw [Shape.rowMajor_val_two, Shape.rowMajor_val_three]
    show o.val * D + d.val = (0 * O + o.val) * D + d.val
    rw [Nat.zero_mul, Nat.zero_add]

/-- A one-column operand: entry `(n, d, 0)` of `[256, D, 1]` is entry `(n, d)`. -/
theorem column_apply (v : (⟨2, ![256, D]⟩ : Shape).Idx → α)
    (h : (⟨2, ![256, D]⟩ : Shape).ShapeCasts ⟨3, ![256, D, 1]⟩) (n : Fin 256) (d : Fin D) :
    shapeCast ⟨3, ![256, D, 1]⟩ v h (ix3 n d (0 : Fin 1)) = v (ix2 n d) := by
  refine shapeCast_apply v h _ (ix2 n d) ?_
  rw [Shape.rowMajor_val_two, Shape.rowMajor_val_three]
  show n.val * D + d.val = (n.val * D + d.val) * 1 + 0
  rw [Nat.mul_one, Nat.add_zero]

/-- A unit user axis put in: entry `(b, 0, o, m)` of `[8, 1, O, M]` is entry `(b, o, m)`. -/
theorem addUserAxis_apply (v : (⟨3, ![8, O, M]⟩ : Shape).Idx → α)
    (h : (⟨3, ![8, O, M]⟩ : Shape).ShapeCasts ⟨4, ![8, 1, O, M]⟩) (b : Fin 8) (o : Fin O) (m : Fin M) :
    shapeCast ⟨4, ![8, 1, O, M]⟩ v h (ix4 b (0 : Fin 1) o m) = v (ix3 b o m) := by
  refine shapeCast_apply v h _ (ix3 b o m) ?_
  rw [Shape.rowMajor_val_three, Shape.rowMajor_val_four]
  show (b.val * O + o.val) * M + m.val = ((b.val * 1 + 0) * O + o.val) * M + m.val
  rw [Nat.mul_one, Nat.add_zero]

/-- Repeated along the user axis: every user's entry is the unit axis's. -/
theorem alongUsers_apply (v : (⟨4, ![8, 1, O, M]⟩ : Shape).Idx → α)
    (h : (⟨4, ![8, 1, O, M]⟩ : Shape).Broadcasts ⟨4, ![8, 32, O, M]⟩) (b : Fin 8) (k : Fin 32) (o : Fin O) (m : Fin M) :
    broadcastTo ⟨4, ![8, 32, O, M]⟩ v h (ix4 b k o m) = v (ix4 b (0 : Fin 1) o m) := by
  refine broadcastTo_apply v h _ (ix4 b (0 : Fin 1) o m) fun a => ?_
  match a with
  | ⟨0, _⟩ => show b.val = if (8 : Nat) = 1 then 0 else b.val; rw [if_neg (by decide)]
  | ⟨1, _⟩ => show (0 : Nat) = if (1 : Nat) = 1 then 0 else k.val; rw [if_pos rfl]
  | ⟨2, _⟩ =>
    show o.val = if O = 1 then 0 else o.val
    have := o.isLt
    split <;> omega
  | ⟨3, _⟩ =>
    show m.val = if M = 1 then 0 else m.val
    have := m.isLt
    split <;> omega

/-- Repeated along the antenna axis: every antenna's entry is the unit axis's. -/
theorem alongAntennas_apply (v : (⟨4, ![8, 32, O, 1]⟩ : Shape).Idx → α)
    (h : (⟨4, ![8, 32, O, 1]⟩ : Shape).Broadcasts ⟨4, ![8, 32, O, M]⟩) (b : Fin 8) (k : Fin 32) (o : Fin O) (m : Fin M) :
    broadcastTo ⟨4, ![8, 32, O, M]⟩ v h (ix4 b k o m) = v (ix4 b k o (0 : Fin 1)) := by
  refine broadcastTo_apply v h _ (ix4 b k o (0 : Fin 1)) fun a => ?_
  match a with
  | ⟨0, _⟩ => show b.val = if (8 : Nat) = 1 then 0 else b.val; rw [if_neg (by decide)]
  | ⟨1, _⟩ => show k.val = if (32 : Nat) = 1 then 0 else k.val; rw [if_neg (by decide)]
  | ⟨2, _⟩ =>
    show o.val = if O = 1 then 0 else o.val
    have := o.isLt
    split <;> omega
  | ⟨3, _⟩ => show (0 : Nat) = if (1 : Nat) = 1 then 0 else m.val; rw [if_pos rfl]

/-! ## The two aggregates -/

/-- The sum over users, read at `(b, d, m)`. -/
theorem sum_users (x : FVec Ideal ⟨4, ![8, 32, D, M]⟩ .f32) (acc : BitVec 32)
    (h : (⟨4, ![8, 32, D, M]⟩ : Shape).Reduces [1] ⟨3, ![8, D, M]⟩) (hφ : FKind.Formats .f32)
    (hacc : acc = FKind.add.neutral .f32 hφ) (b : Fin 8) (d : Fin D) (m : Fin M) :
    multiReduction .add [1] ⟨3, ![8, D, M]⟩ x acc h hφ hacc (ix3 b d m) = ∑ k : Fin 32, x (ix4 b k d m) := by
  refine (Ideal.multiReduction_add_single x acc h hφ hacc (ix3 b d m)).trans ?_
  refine Finset.sum_congr rfl fun k _ => congrArg x ?_
  funext a
  apply Fin.ext
  match a with
  | ⟨0, _⟩ => rfl
  | ⟨1, _⟩ => rfl
  | ⟨2, _⟩ => rfl
  | ⟨3, _⟩ => rfl

/-- The sum over antennas of the merged block, read at `(n, d)`. -/
theorem sum_antennas (y : FVec Ideal ⟨3, ![256, D, M]⟩ .f32) (acc : BitVec 32)
    (h : (⟨3, ![256, D, M]⟩ : Shape).Reduces [2] ⟨2, ![256, D]⟩) (hφ : FKind.Formats .f32)
    (hacc : acc = FKind.add.neutral .f32 hφ) (n : Fin 256) (d : Fin D) :
    multiReduction .add [2] ⟨2, ![256, D]⟩ y acc h hφ hacc (ix2 n d) = ∑ m : Fin M, y (ix3 n d m) := by
  refine (Ideal.multiReduction_add_single y acc h hφ hacc (ix2 n d)).trans ?_
  refine Finset.sum_congr rfl fun m _ => congrArg y ?_
  funext a
  apply Fin.ext
  match a with
  | ⟨0, _⟩ => rfl
  | ⟨1, _⟩ => rfl
  | ⟨2, _⟩ => rfl

/-! ## The three terms -/

/-- The edge's own term at `(b, k, o, m)`: `Σ_d x[b,k,d,m]·W[o,d]`. -/
theorem edge_term (dz : DotDims ⟨3, ![256, O, D]⟩ ⟨3, ![256, D, M]⟩ ⟨3, ![256, O, M]⟩) (hz : IsBatched dz)
    (x : FVec Ideal ⟨4, ![8, 32, D, M]⟩ .f32) (W : FVec Ideal ⟨2, ![O, D]⟩ .f32)
    (h1 : (⟨4, ![8, 32, D, M]⟩ : Shape).ShapeCasts ⟨3, ![256, D, M]⟩)
    (h2 : (⟨2, ![O, D]⟩ : Shape).ShapeCasts ⟨3, ![1, O, D]⟩)
    (h3 : (⟨3, ![1, O, D]⟩ : Shape).Broadcasts ⟨3, ![256, O, D]⟩)
    (h4 : (⟨3, ![256, O, M]⟩ : Shape).ShapeCasts ⟨4, ![8, 32, O, M]⟩)
    (b : Fin 8) (k : Fin 32) (o : Fin O) (m : Fin M) :
    shapeCast ⟨4, ![8, 32, O, M]⟩
        (matmul dz none (broadcastTo ⟨3, ![256, O, D]⟩ (shapeCast ⟨3, ![1, O, D]⟩ W h2) h3)
          (shapeCast ⟨3, ![256, D, M]⟩ x h1) (constant (F := Ideal) ⟨3, ![256, O, M]⟩ .f32 0x00000000#32)) h4 (ix4 b k o m)
      = ∑ d : Fin D, x (ix4 b k d m) * W (ix2 o d) := by
  refine (split_apply _ h4 b k o m).trans ?_
  refine (matmul_zero_apply hz none _ _ (flat b k) o m).trans ?_
  refine Finset.sum_congr rfl fun d _ => ?_
  rw [repeat_apply W h2 h3 (flat b k) o d, merge_apply x h1 b k d m, mul_comm]

/-- The antenna's term at `(b, k, o, m)`: `Σ_d (Σ_k' x[b,k',d,m])·W[o,d]`, the same for every user `k`. -/
theorem antenna_term (dm : DotDims ⟨3, ![8, O, D]⟩ ⟨3, ![8, D, M]⟩ ⟨3, ![8, O, M]⟩) (hm : IsBatched dm)
    (x : FVec Ideal ⟨4, ![8, 32, D, M]⟩ .f32) (W : FVec Ideal ⟨2, ![O, D]⟩ .f32) (acc : BitVec 32)
    (hr : (⟨4, ![8, 32, D, M]⟩ : Shape).Reduces [1] ⟨3, ![8, D, M]⟩) (hφ : FKind.Formats .f32)
    (hacc : acc = FKind.add.neutral .f32 hφ)
    (h2 : (⟨2, ![O, D]⟩ : Shape).ShapeCasts ⟨3, ![1, O, D]⟩)
    (h3 : (⟨3, ![1, O, D]⟩ : Shape).Broadcasts ⟨3, ![8, O, D]⟩)
    (h5 : (⟨3, ![8, O, M]⟩ : Shape).ShapeCasts ⟨4, ![8, 1, O, M]⟩)
    (h6 : (⟨4, ![8, 1, O, M]⟩ : Shape).ShapeCasts ⟨4, ![8, 1, O, M]⟩)
    (h7 : (⟨4, ![8, 1, O, M]⟩ : Shape).Broadcasts ⟨4, ![8, 32, O, M]⟩)
    (b : Fin 8) (k : Fin 32) (o : Fin O) (m : Fin M) :
    broadcastTo ⟨4, ![8, 32, O, M]⟩
        (shapeCast ⟨4, ![8, 1, O, M]⟩
          (shapeCast ⟨4, ![8, 1, O, M]⟩
            (matmul dm none (broadcastTo ⟨3, ![8, O, D]⟩ (shapeCast ⟨3, ![1, O, D]⟩ W h2) h3)
              (multiReduction .add [1] ⟨3, ![8, D, M]⟩ x acc hr hφ hacc)
              (constant (F := Ideal) ⟨3, ![8, O, M]⟩ .f32 0x00000000#32)) h5) h6) h7 (ix4 b k o m)
      = ∑ d : Fin D, (∑ k' : Fin 32, x (ix4 b k' d m)) * W (ix2 o d) := by
  refine (alongUsers_apply _ h7 b k o m).trans ?_
  rw [shapeCast_self]
  refine (addUserAxis_apply _ h5 b o m).trans ?_
  refine (matmul_zero_apply hm none _ _ b o m).trans ?_
  refine Finset.sum_congr rfl fun d _ => ?_
  rw [repeat_apply W h2 h3 b o d, sum_users x acc hr hφ hacc b d m, mul_comm]

/-- The user's term at `(b, k, o, m)`: `Σ_d (Σ_m' x[b,k,d,m'])·W[o,d]`, the same for every antenna `m`. -/
theorem user_term (dk : DotDims ⟨3, ![256, O, D]⟩ ⟨3, ![256, D, 1]⟩ ⟨3, ![256, O, 1]⟩) (hk : IsBatched dk)
    (x : FVec Ideal ⟨4, ![8, 32, D, M]⟩ .f32) (W : FVec Ideal ⟨2, ![O, D]⟩ .f32) (acc : BitVec 32)
    (h1 : (⟨4, ![8, 32, D, M]⟩ : Shape).ShapeCasts ⟨3, ![256, D, M]⟩)
    (hr : (⟨3, ![256, D, M]⟩ : Shape).Reduces [2] ⟨2, ![256, D]⟩) (hφ : FKind.Formats .f32)
    (hacc : acc = FKind.add.neutral .f32 hφ)
    (h8 : (⟨2, ![256, D]⟩ : Shape).ShapeCasts ⟨3, ![256, D, 1]⟩)
    (h2 : (⟨2, ![O, D]⟩ : Shape).ShapeCasts ⟨3, ![1, O, D]⟩)
    (h3 : (⟨3, ![1, O, D]⟩ : Shape).Broadcasts ⟨3, ![256, O, D]⟩)
    (h9 : (⟨3, ![256, O, 1]⟩ : Shape).ShapeCasts ⟨4, ![8, 32, O, 1]⟩)
    (h10 : (⟨4, ![8, 32, O, 1]⟩ : Shape).ShapeCasts ⟨4, ![8, 32, O, 1]⟩)
    (h11 : (⟨4, ![8, 32, O, 1]⟩ : Shape).Broadcasts ⟨4, ![8, 32, O, M]⟩)
    (b : Fin 8) (k : Fin 32) (o : Fin O) (m : Fin M) :
    broadcastTo ⟨4, ![8, 32, O, M]⟩
        (shapeCast ⟨4, ![8, 32, O, 1]⟩
          (shapeCast ⟨4, ![8, 32, O, 1]⟩
            (matmul dk none (broadcastTo ⟨3, ![256, O, D]⟩ (shapeCast ⟨3, ![1, O, D]⟩ W h2) h3)
              (shapeCast ⟨3, ![256, D, 1]⟩
                (multiReduction .add [2] ⟨2, ![256, D]⟩ (shapeCast ⟨3, ![256, D, M]⟩ x h1) acc hr hφ hacc) h8)
              (constant (F := Ideal) ⟨3, ![256, O, 1]⟩ .f32 0x00000000#32)) h9) h10) h11 (ix4 b k o m)
      = ∑ d : Fin D, (∑ m' : Fin M, x (ix4 b k d m')) * W (ix2 o d) := by
  refine (alongAntennas_apply _ h11 b k o m).trans ?_
  rw [shapeCast_self]
  refine (split_apply _ h9 b k o (0 : Fin 1)).trans ?_
  refine (matmul_zero_apply hk none _ _ (flat b k) o (0 : Fin 1)).trans ?_
  refine Finset.sum_congr rfl fun d _ => ?_
  rw [repeat_apply W h2 h3 (flat b k) o d, column_apply _ h8 (flat b k) d, sum_antennas _ acc hr hφ hacc (flat b k) d, mul_comm]
  refine congrArg (· * _) (Finset.sum_congr rfl fun m' _ => ?_)
  exact merge_apply x h1 b k d m'

/-! ## The normalisation to unit total power

`z` squared is summed over antennas, then users, then channels, each sum keeping its axis as a unit axis; the
reciprocal's square root is repeated over the whole block and multiplies `z`. -/

variable {C : Nat}

/-- The sum over antennas of a `[8, 32, C, M]` block, read at `(b, k, c)`. -/
theorem sum_lanes (v : FVec Ideal ⟨4, ![8, 32, C, M]⟩ .f32) (acc : BitVec 32)
    (h : (⟨4, ![8, 32, C, M]⟩ : Shape).Reduces [3] ⟨3, ![8, 32, C]⟩) (hφ : FKind.Formats .f32)
    (hacc : acc = FKind.add.neutral .f32 hφ) (b : Fin 8) (k : Fin 32) (c : Fin C) :
    multiReduction .add [3] ⟨3, ![8, 32, C]⟩ v acc h hφ hacc (ix3 b k c) = ∑ m : Fin M, v (ix4 b k c m) := by
  refine (Ideal.multiReduction_add_single v acc h hφ hacc (ix3 b k c)).trans ?_
  refine Finset.sum_congr rfl fun m _ => congrArg v ?_
  funext a
  apply Fin.ext
  match a with
  | ⟨0, _⟩ => rfl
  | ⟨1, _⟩ => rfl
  | ⟨2, _⟩ => rfl
  | ⟨3, _⟩ => rfl

/-- The sum over users of a `[8, 32, C, 1]` array, read at `(b, c, 0)`. -/
theorem sum_users_col (v : FVec Ideal ⟨4, ![8, 32, C, 1]⟩ .f32) (acc : BitVec 32)
    (h : (⟨4, ![8, 32, C, 1]⟩ : Shape).Reduces [1] ⟨3, ![8, C, 1]⟩) (hφ : FKind.Formats .f32)
    (hacc : acc = FKind.add.neutral .f32 hφ) (b : Fin 8) (c : Fin C) :
    multiReduction .add [1] ⟨3, ![8, C, 1]⟩ v acc h hφ hacc (ix3 b c (0 : Fin 1))
      = ∑ k : Fin 32, v (ix4 b k c (0 : Fin 1)) := by
  refine (Ideal.multiReduction_add_single v acc h hφ hacc (ix3 b c (0 : Fin 1))).trans ?_
  refine Finset.sum_congr rfl fun k _ => congrArg v ?_
  funext a
  apply Fin.ext
  match a with
  | ⟨0, _⟩ => rfl
  | ⟨1, _⟩ => rfl
  | ⟨2, _⟩ => rfl
  | ⟨3, _⟩ => rfl

/-- The sum over channels of a `[8, 1, C, 1]` array, read at `(b, 0, 0)`. -/
theorem sum_channels (v : FVec Ideal ⟨4, ![8, 1, C, 1]⟩ .f32) (acc : BitVec 32)
    (h : (⟨4, ![8, 1, C, 1]⟩ : Shape).Reduces [2] ⟨3, ![8, 1, 1]⟩) (hφ : FKind.Formats .f32)
    (hacc : acc = FKind.add.neutral .f32 hφ) (b : Fin 8) :
    multiReduction .add [2] ⟨3, ![8, 1, 1]⟩ v acc h hφ hacc (ix3 b (0 : Fin 1) (0 : Fin 1))
      = ∑ c : Fin C, v (ix4 b (0 : Fin 1) c (0 : Fin 1)) := by
  refine (Ideal.multiReduction_add_single v acc h hφ hacc (ix3 b (0 : Fin 1) (0 : Fin 1))).trans ?_
  refine Finset.sum_congr rfl fun c _ => congrArg v ?_
  funext a
  apply Fin.ext
  match a with
  | ⟨0, _⟩ => rfl
  | ⟨1, _⟩ => rfl
  | ⟨2, _⟩ => rfl
  | ⟨3, _⟩ => rfl

/-- A trailing unit axis put in: entry `(b, k, c, 0)` of `[8, 32, C, 1]` is entry `(b, k, c)`. -/
theorem keepLane_apply (v : (⟨3, ![8, 32, C]⟩ : Shape).Idx → α)
    (h : (⟨3, ![8, 32, C]⟩ : Shape).ShapeCasts ⟨4, ![8, 32, C, 1]⟩) (b : Fin 8) (k : Fin 32) (c : Fin C) :
    shapeCast ⟨4, ![8, 32, C, 1]⟩ v h (ix4 b k c (0 : Fin 1)) = v (ix3 b k c) := by
  refine shapeCast_apply v h _ (ix3 b k c) ?_
  rw [Shape.rowMajor_val_three, Shape.rowMajor_val_four]
  show (b.val * 32 + k.val) * C + c.val = ((b.val * 32 + k.val) * C + c.val) * 1 + 0
  rw [Nat.mul_one, Nat.add_zero]

/-- A unit user axis put in: entry `(b, 0, c, 0)` of `[8, 1, C, 1]` is entry `(b, c, 0)`. -/
theorem keepUser_apply (v : (⟨3, ![8, C, 1]⟩ : Shape).Idx → α)
    (h : (⟨3, ![8, C, 1]⟩ : Shape).ShapeCasts ⟨4, ![8, 1, C, 1]⟩) (b : Fin 8) (c : Fin C) :
    shapeCast ⟨4, ![8, 1, C, 1]⟩ v h (ix4 b (0 : Fin 1) c (0 : Fin 1)) = v (ix3 b c (0 : Fin 1)) := by
  refine shapeCast_apply v h _ (ix3 b c (0 : Fin 1)) ?_
  rw [Shape.rowMajor_val_three, Shape.rowMajor_val_four]
  show (b.val * C + c.val) * 1 + 0 = ((b.val * 1 + 0) * C + c.val) * 1 + 0
  simp only [Nat.mul_one, Nat.add_zero]

/-- A unit channel axis put in: entry `(b, 0, 0, 0)` of `[8, 1, 1, 1]` is entry `(b, 0, 0)`. -/
theorem keepChannel_apply (v : (⟨3, ![8, 1, 1]⟩ : Shape).Idx → α)
    (h : (⟨3, ![8, 1, 1]⟩ : Shape).ShapeCasts ⟨4, ![8, 1, 1, 1]⟩) (b : Fin 8) :
    shapeCast ⟨4, ![8, 1, 1, 1]⟩ v h (ix4 b (0 : Fin 1) (0 : Fin 1) (0 : Fin 1)) = v (ix3 b (0 : Fin 1) (0 : Fin 1)) := by
  refine shapeCast_apply v h _ (ix3 b (0 : Fin 1) (0 : Fin 1)) ?_
  rw [Shape.rowMajor_val_three, Shape.rowMajor_val_four]
  show (b.val * 1 + 0) * 1 + 0 = ((b.val * 1 + 0) * 1 + 0) * 1 + 0
  simp only [Nat.mul_one, Nat.add_zero]

/-- One value per batch element repeated over the whole block. -/
theorem overBlock_apply (v : (⟨4, ![8, 1, 1, 1]⟩ : Shape).Idx → α)
    (h : (⟨4, ![8, 1, 1, 1]⟩ : Shape).Broadcasts ⟨4, ![8, 32, C, M]⟩) (b : Fin 8) (k : Fin 32) (c : Fin C) (m : Fin M) :
    broadcastTo ⟨4, ![8, 32, C, M]⟩ v h (ix4 b k c m) = v (ix4 b (0 : Fin 1) (0 : Fin 1) (0 : Fin 1)) := by
  refine broadcastTo_apply v h _ (ix4 b (0 : Fin 1) (0 : Fin 1) (0 : Fin 1)) fun a => ?_
  match a with
  | ⟨0, _⟩ => show b.val = if (8 : Nat) = 1 then 0 else b.val; rw [if_neg (by decide)]
  | ⟨1, _⟩ => show (0 : Nat) = if (1 : Nat) = 1 then 0 else k.val; rw [if_pos rfl]
  | ⟨2, _⟩ => show (0 : Nat) = if (1 : Nat) = 1 then 0 else c.val; rw [if_pos rfl]
  | ⟨3, _⟩ => show (0 : Nat) = if (1 : Nat) = 1 then 0 else m.val; rw [if_pos rfl]

/-- The normalised block at `(b, k, c, m)`: `sqrt(one / Σ_c Σ_k Σ_m z[b,k,c,m]²) · z[b,k,c,m]`. -/
theorem unit_power_term (z : FVec Ideal ⟨4, ![8, 32, C, M]⟩ .f32) (one : Ideal .f32) (acc : BitVec 32)
    (hφ : FKind.Formats .f32) (hacc : acc = FKind.add.neutral .f32 hφ)
    (r1 : (⟨4, ![8, 32, C, M]⟩ : Shape).Reduces [3] ⟨3, ![8, 32, C]⟩)
    (c1 : (⟨3, ![8, 32, C]⟩ : Shape).ShapeCasts ⟨4, ![8, 32, C, 1]⟩)
    (r2 : (⟨4, ![8, 32, C, 1]⟩ : Shape).Reduces [1] ⟨3, ![8, C, 1]⟩)
    (c2 : (⟨3, ![8, C, 1]⟩ : Shape).ShapeCasts ⟨4, ![8, 1, C, 1]⟩)
    (r3 : (⟨4, ![8, 1, C, 1]⟩ : Shape).Reduces [2] ⟨3, ![8, 1, 1]⟩)
    (c3 : (⟨3, ![8, 1, 1]⟩ : Shape).ShapeCasts ⟨4, ![8, 1, 1, 1]⟩)
    (bc : (⟨4, ![8, 1, 1, 1]⟩ : Shape).Broadcasts ⟨4, ![8, 32, C, M]⟩)
    (b : Fin 8) (k : Fin 32) (c : Fin C) (m : Fin M) :
    mulf (broadcastTo ⟨4, ![8, 32, C, M]⟩
        (sqrt (divf (broadcast ⟨4, ![8, 1, 1, 1]⟩ one)
          (shapeCast ⟨4, ![8, 1, 1, 1]⟩
            (multiReduction .add [2] ⟨3, ![8, 1, 1]⟩
              (shapeCast ⟨4, ![8, 1, C, 1]⟩
                (multiReduction .add [1] ⟨3, ![8, C, 1]⟩
                  (shapeCast ⟨4, ![8, 32, C, 1]⟩
                    (multiReduction .add [3] ⟨3, ![8, 32, C]⟩ (mulf z z) acc r1 hφ hacc) c1) acc r2 hφ hacc) c2)
              acc r3 hφ hacc) c3))) bc) z (ix4 b k c m)
      = Ideal.sqrt (Ideal.div one (∑ c' : Fin C, ∑ k' : Fin 32, ∑ m' : Fin M, z (ix4 b k' c' m') * z (ix4 b k' c' m')))
          * z (ix4 b k c m) := by
  show broadcastTo ⟨4, ![8, 32, C, M]⟩ _ bc (ix4 b k c m) * z (ix4 b k c m) = _
  refine congrArg (· * z (ix4 b k c m)) ?_
  refine (overBlock_apply _ bc b k c m).trans ?_
  show Ideal.sqrt (Ideal.div one (shapeCast ⟨4, ![8, 1, 1, 1]⟩ _ c3 (ix4 b (0 : Fin 1) (0 : Fin 1) (0 : Fin 1)))) = _
  refine congrArg (fun p => Ideal.sqrt (Ideal.div one p)) ?_
  refine (keepChannel_apply _ c3 b).trans ?_
  refine (sum_channels _ acc r3 hφ hacc b).trans ?_
  refine Finset.sum_congr rfl fun c' _ => ?_
  refine (keepUser_apply _ c2 b c').trans ?_
  refine (sum_users_col _ acc r2 hφ hacc b c').trans ?_
  refine Finset.sum_congr rfl fun k' _ => ?_
  refine (keepLane_apply _ c1 b k' c').trans ?_
  exact sum_lanes (mulf z z) acc r1 hφ hacc b k' c'

end Cert.BipartiteTerms

end
-- ==== Proof.KernelLayers.lean ====
/-
  The vector unit's body, layer by layer, on one block of 8 batch elements laid out (batch, user, feature, antenna).

  Each layer's three terms are named once (`firstSum`: 2 → 32 features, `midSum`: 32 → 32, `lastSum`: 32 → 2), read at
  an entry `(b, k, o, m)` as the layer `Gnn.layer` of batch element `b` of the block, and the printed pieces of the
  body are these names by unfolding: a rectified layer is `max (sum) 0`, the last one is scaled to unit total power.
  Composed, the block the body stores is batch element `b` of its input block through `Gnn.net`.
-/
import proofs.«170046_j44495861186889_2_alg».proof.Proof.Gen.KernelIdeal.Skeleton
import proofs.«170046_j44495861186889_2_alg».proof.Proof.LibBipartiteTerms
import proofs.«170046_j44495861186889_2_alg».proof.Proof.GnnSpec

noncomputable section

namespace Cert.KernelIdeal.LayerValue

open Idealize.ShloMosaic Idealize.ShloMosaic.ValueIdx Cert.KernelIdeal Cert.KernelIdeal.Gen
open Cert.BatchedMatmul Cert.BipartiteTerms Cert.Gnn
open scoped BigOperators

/-- Batch element `b` of a block laid out (batch, user, feature, antenna), as a function of antenna, user, feature. -/
def act {D : Nat} (x : (⟨4, ![8, 32, D, 64]⟩ : Shape).Idx → EReal) (b : Fin 8) : Fin 64 → Fin 32 → Fin D → EReal :=
  fun m k d => x (ix4 b k d m)

/-- The three terms of a layer, added edge + antenna + user, are the layer of batch element `b`. -/
theorem three_terms {D O : Nat} (e a u : FVec Ideal ⟨4, ![8, 32, O, 64]⟩ .f32)
    (x : FVec Ideal ⟨4, ![8, 32, D, 64]⟩ .f32) (Ws Wm Wk : FVec Ideal ⟨2, ![O, D]⟩ .f32)
    (b : Fin 8) (k : Fin 32) (o : Fin O) (m : Fin 64)
    (he : e (ix4 b k o m) = ∑ d : Fin D, x (ix4 b k d m) * Ws (ix2 o d))
    (ha : a (ix4 b k o m) = ∑ d : Fin D, (∑ k' : Fin 32, x (ix4 b k' d m)) * Wm (ix2 o d))
    (hu : u (ix4 b k o m) = ∑ d : Fin D, (∑ m' : Fin 64, x (ix4 b k d m')) * Wk (ix2 o d)) :
    addf (addf e a) u (ix4 b k o m) = layer (mat Ws) (mat Wm) (mat Wk) (act x b) m k o := by
  show e (ix4 b k o m) + a (ix4 b k o m) + u (ix4 b k o m) = _
  rw [he, ha, hu]
  rfl

/-! ## The three shapes of a layer's sum -/

/-- The first layer's three terms: 2 input features, 32 output features. -/
def firstSum (x : FVec Ideal S8x32x2x64 .f32) (ws wm wk : FVec Ideal S32x2 .f32) : FVec Ideal S8x32x32x64 .f32 :=
  addf (addf
    (shapeCast S8x32x32x64 (matmul dot_S256x32x2_S256x2x64_S256x32x64_2_1_1_2_0_0 none (broadcastTo S256x32x2 (shapeCast S1x32x2 ws shapeCasts_S32x2_S1x32x2) broadcasts_S1x32x2_S256x32x2) (shapeCast S256x2x64 x shapeCasts_S8x32x2x64_S256x2x64) (constant S256x32x64 .f32 0x00000000#32)) shapeCasts_S256x32x64_S8x32x32x64)
    (broadcastTo S8x32x32x64 (shapeCast S8x1x32x64 (shapeCast S8x1x32x64 (matmul dot_S8x32x2_S8x2x64_S8x32x64_2_1_1_2_0_0 none (broadcastTo S8x32x2 (shapeCast S1x32x2 wm shapeCasts_S32x2_S1x32x2) broadcasts_S1x32x2_S8x32x2) (multiReduction .add [1] S8x2x64 x 0x00000000#32 reduces_S8x32x2x64_S8x2x64 (.inl rfl) rfl) (constant S8x32x64 .f32 0x00000000#32)) shapeCasts_S8x32x64_S8x1x32x64) shapeCasts_S8x1x32x64_S8x1x32x64) broadcasts_S8x1x32x64_S8x32x32x64))
    (broadcastTo S8x32x32x64 (shapeCast S8x32x32x1 (shapeCast S8x32x32x1 (matmul dot_S256x32x2_S256x2x1_S256x32x1_2_1_1_2_0_0 none (broadcastTo S256x32x2 (shapeCast S1x32x2 wk shapeCasts_S32x2_S1x32x2) broadcasts_S1x32x2_S256x32x2) (shapeCast S256x2x1 (multiReduction .add [2] S256x2 (shapeCast S256x2x64 x shapeCasts_S8x32x2x64_S256x2x64) 0x00000000#32 reduces_S256x2x64_S256x2 (.inl rfl) rfl) shapeCasts_S256x2_S256x2x1) (constant S256x32x1 .f32 0x00000000#32)) shapeCasts_S256x32x1_S8x32x32x1) shapeCasts_S8x32x32x1_S8x32x32x1) broadcasts_S8x32x32x1_S8x32x32x64)

theorem firstSum_apply (x : FVec Ideal S8x32x2x64 .f32) (ws wm wk : FVec Ideal S32x2 .f32)
    (b : Fin 8) (k : Fin 32) (o : Fin 32) (m : Fin 64) :
    firstSum x ws wm wk (ix4 b k o m) = layer (mat ws) (mat wm) (mat wk) (act x b) m k o := by
  unfold firstSum
  refine three_terms _ _ _ x ws wm wk b k o m ?_ ?_ ?_
  · exact edge_term dot_S256x32x2_S256x2x64_S256x32x64_2_1_1_2_0_0 ⟨rfl, rfl, rfl, rfl, rfl, rfl⟩ x ws _ _ _ _ b k o m
  · exact antenna_term dot_S8x32x2_S8x2x64_S8x32x64_2_1_1_2_0_0 ⟨rfl, rfl, rfl, rfl, rfl, rfl⟩ x wm 0x00000000#32 _ (.inl rfl) rfl _ _ _ _ _ b k o m
  · exact user_term dot_S256x32x2_S256x2x1_S256x32x1_2_1_1_2_0_0 ⟨rfl, rfl, rfl, rfl, rfl, rfl⟩ x wk 0x00000000#32 _ _ (.inl rfl) rfl _ _ _ _ _ _ b k o m

/-- A middle layer's three terms: 32 features in, 32 out. -/
def midSum (x : FVec Ideal S8x32x32x64 .f32) (ws wm wk : FVec Ideal S32x32 .f32) : FVec Ideal S8x32x32x64 .f32 :=
  addf (addf
    (shapeCast S8x32x32x64 (matmul dot_S256x32x32_S256x32x64_S256x32x64_2_1_1_2_0_0 none (broadcastTo S256x32x32 (shapeCast S1x32x32 ws shapeCasts_S32x32_S1x32x32) broadcasts_S1x32x32_S256x32x32) (shapeCast S256x32x64 x shapeCasts_S8x32x32x64_S256x32x64) (constant S256x32x64 .f32 0x00000000#32)) shapeCasts_S256x32x64_S8x32x32x64)
    (broadcastTo S8x32x32x64 (shapeCast S8x1x32x64 (shapeCast S8x1x32x64 (matmul dot_S8x32x32_S8x32x64_S8x32x64_2_1_1_2_0_0 none (broadcastTo S8x32x32 (shapeCast S1x32x32 wm shapeCasts_S32x32_S1x32x32) broadcasts_S1x32x32_S8x32x32) (multiReduction .add [1] S8x32x64 x 0x00000000#32 reduces_S8x32x32x64_S8x32x64 (.inl rfl) rfl) (constant S8x32x64 .f32 0x00000000#32)) shapeCasts_S8x32x64_S8x1x32x64) shapeCasts_S8x1x32x64_S8x1x32x64) broadcasts_S8x1x32x64_S8x32x32x64))
    (broadcastTo S8x32x32x64 (shapeCast S8x32x32x1 (shapeCast S8x32x32x1 (matmul dot_S256x32x32_S256x32x1_S256x32x1_2_1_1_2_0_0 none (broadcastTo S256x32x32 (shapeCast S1x32x32 wk shapeCasts_S32x32_S1x32x32) broadcasts_S1x32x32_S256x32x32) (shapeCast S256x32x1 (multiReduction .add [2] S256x32 (shapeCast S256x32x64 x shapeCasts_S8x32x32x64_S256x32x64) 0x00000000#32 reduces_S256x32x64_S256x32 (.inl rfl) rfl) shapeCasts_S256x32_S256x32x1) (constant S256x32x1 .f32 0x00000000#32)) shapeCasts_S256x32x1_S8x32x32x1) shapeCasts_S8x32x32x1_S8x32x32x1) broadcasts_S8x32x32x1_S8x32x32x64)

theorem midSum_apply (x : FVec Ideal S8x32x32x64 .f32) (ws wm wk : FVec Ideal S32x32 .f32)
    (b : Fin 8) (k : Fin 32) (o : Fin 32) (m : Fin 64) :
    midSum x ws wm wk (ix4 b k o m) = layer (mat ws) (mat wm) (mat wk) (act x b) m k o := by
  unfold midSum
  refine three_terms _ _ _ x ws wm wk b k o m ?_ ?_ ?_
  · exact edge_term dot_S256x32x32_S256x32x64_S256x32x64_2_1_1_2_0_0 ⟨rfl, rfl, rfl, rfl, rfl, rfl⟩ x ws _ _ _ _ b k o m
  · exact antenna_term dot_S8x32x32_S8x32x64_S8x32x64_2_1_1_2_0_0 ⟨rfl, rfl, rfl, rfl, rfl, rfl⟩ x wm 0x00000000#32 _ (.inl rfl) rfl _ _ _ _ _ b k o m
  · exact user_term dot_S256x32x32_S256x32x1_S256x32x1_2_1_1_2_0_0 ⟨rfl, rfl, rfl, rfl, rfl, rfl⟩ x wk 0x00000000#32 _ _ (.inl rfl) rfl _ _ _ _ _ _ b k o m

/-- The last layer's three terms: 32 features in, the 2 channels out. -/
def lastSum (x : FVec Ideal S8x32x32x64 .f32) (ws wm wk : FVec Ideal S2x32 .f32) : FVec Ideal S8x32x2x64 .f32 :=
  addf (addf
    (shapeCast S8x32x2x64 (matmul dot_S256x2x32_S256x32x64_S256x2x64_2_1_1_2_0_0 none (broadcastTo S256x2x32 (shapeCast S1x2x32 ws shapeCasts_S2x32_S1x2x32) broadcasts_S1x2x32_S256x2x32) (shapeCast S256x32x64 x shapeCasts_S8x32x32x64_S256x32x64) (constant S256x2x64 .f32 0x00000000#32)) shapeCasts_S256x2x64_S8x32x2x64)
    (broadcastTo S8x32x2x64 (shapeCast S8x1x2x64 (shapeCast S8x1x2x64 (matmul dot_S8x2x32_S8x32x64_S8x2x64_2_1_1_2_0_0 none (broadcastTo S8x2x32 (shapeCast S1x2x32 wm shapeCasts_S2x32_S1x2x32) broadcasts_S1x2x32_S8x2x32) (multiReduction .add [1] S8x32x64 x 0x00000000#32 reduces_S8x32x32x64_S8x32x64 (.inl rfl) rfl) (constant S8x2x64 .f32 0x00000000#32)) shapeCasts_S8x2x64_S8x1x2x64) shapeCasts_S8x1x2x64_S8x1x2x64) broadcasts_S8x1x2x64_S8x32x2x64))
    (broadcastTo S8x32x2x64 (shapeCast S8x32x2x1 (shapeCast S8x32x2x1 (matmul dot_S256x2x32_S256x32x1_S256x2x1_2_1_1_2_0_0 none (broadcastTo S256x2x32 (shapeCast S1x2x32 wk shapeCasts_S2x32_S1x2x32) broadcasts_S1x2x32_S256x2x32) (shapeCast S256x32x1 (multiReduction .add [2] S256x32 (shapeCast S256x32x64 x shapeCasts_S8x32x32x64_S256x32x64) 0x00000000#32 reduces_S256x32x64_S256x32 (.inl rfl) rfl) shapeCasts_S256x32_S256x32x1) (constant S256x2x1 .f32 0x00000000#32)) shapeCasts_S256x2x1_S8x32x2x1) shapeCasts_S8x32x2x1_S8x32x2x1) broadcasts_S8x32x2x1_S8x32x2x64)

theorem lastSum_apply (x : FVec Ideal S8x32x32x64 .f32) (ws wm wk : FVec Ideal S2x32 .f32)
    (b : Fin 8) (k : Fin 32) (o : Fin 2) (m : Fin 64) :
    lastSum x ws wm wk (ix4 b k o m) = layer (mat ws) (mat wm) (mat wk) (act x b) m k o := by
  unfold lastSum
  refine three_terms _ _ _ x ws wm wk b k o m ?_ ?_ ?_
  · exact edge_term dot_S256x2x32_S256x32x64_S256x2x64_2_1_1_2_0_0 ⟨rfl, rfl, rfl, rfl, rfl, rfl⟩ x ws _ _ _ _ b k o m
  · exact antenna_term dot_S8x2x32_S8x32x64_S8x2x64_2_1_1_2_0_0 ⟨rfl, rfl, rfl, rfl, rfl, rfl⟩ x wm 0x00000000#32 _ (.inl rfl) rfl _ _ _ _ _ b k o m
  · exact user_term dot_S256x2x32_S256x32x1_S256x2x1_2_1_1_2_0_0 ⟨rfl, rfl, rfl, rfl, rfl, rfl⟩ x wk 0x00000000#32 _ _ (.inl rfl) rfl _ _ _ _ _ _ b k o m

/-! ## The printed pieces are these sums -/

/-- A rectified block: `max (·) 0` entry by entry. -/
def rect (s : FVec Ideal S8x32x32x64 .f32) : FVec Ideal S8x32x32x64 .f32 :=
  shapeCast S8x32x32x64 (maximumf s (broadcast S8x32x32x64 (Scalar.ofBits .f32 0x00000000#32))) shapeCasts_S8x32x32x64_S8x32x32x64

theorem rect_apply (s : FVec Ideal S8x32x32x64 .f32) (j : S8x32x32x64.Idx) : rect s j = max (s j) zero := by
  unfold rect
  exact congrFun (shapeCast_self _ _) j

theorem pay2_eq (x : Vec Ideal S8x32x2x64 .f32) (ws wm wk : Vec Ideal S32x2 .f32) :
    k0_pay2 (F := Ideal) x ws wm wk
      = rect (firstSum (shapeCast S8x32x2x64 x shapeCasts_S8x32x2x64_S8x32x2x64) ws wm wk) := rfl

theorem pay3_eq (x : Vec Ideal S8x32x32x64 .f32) (ws wm wk : Vec Ideal S32x32 .f32) :
    k0_pay3 (F := Ideal) x ws wm wk = rect (midSum x ws wm wk) := rfl

theorem pay4_eq (x : Vec Ideal S8x32x32x64 .f32) (ws wm wk : Vec Ideal S32x32 .f32) :
    k0_pay4 (F := Ideal) x ws wm wk = rect (midSum x ws wm wk) := rfl

theorem pay8_eq (x : Vec Ideal S8x32x32x64 .f32) (ws wm wk : Vec Ideal S32x32 .f32) :
    k0_pay8 (F := Ideal) wm wk (k0_pay5 x) (k0_pay6 x ws) (k0_pay7 x) = rect (midSum x ws wm wk) := rfl

/-- The last layer's sum scaled to unit total power. -/
def scaled (z : FVec Ideal S8x32x2x64 .f32) : FVec Ideal S8x32x2x64 .f32 :=
  mulf (broadcastTo S8x32x2x64
      (sqrt (divf (broadcast S8x1x1x1 (Scalar.ofBits .f32 0x3F800000#32))
        (shapeCast S8x1x1x1
          (multiReduction .add [2] S8x1x1
            (shapeCast S8x1x2x1
              (multiReduction .add [1] S8x2x1
                (shapeCast S8x32x2x1
                  (multiReduction .add [3] S8x32x2 (mulf z z) 0x00000000#32 reduces_S8x32x2x64_S8x32x2 (.inl rfl) rfl)
                  shapeCasts_S8x32x2_S8x32x2x1) 0x00000000#32 reduces_S8x32x2x1_S8x2x1 (.inl rfl) rfl)
              shapeCasts_S8x2x1_S8x1x2x1) 0x00000000#32 reduces_S8x1x2x1_S8x1x1 (.inl rfl) rfl)
          shapeCasts_S8x1x1_S8x1x1x1))) broadcasts_S8x1x1x1_S8x32x2x64) z

theorem pay1_eq (x : Vec Ideal S8x32x32x64 .f32) (ws wm wk : Vec Ideal S2x32 .f32) :
    k0_pay1 (F := Ideal) wk (k0_pay9 x) (k0_pay10 x ws) (k0_pay11 x wm) = scaled (lastSum x ws wm wk) := rfl

/-! ## Each piece at an entry -/

/-- A rectified layer of the block is the rectified layer of each batch element. -/
theorem act_rect_first (x : Vec Ideal S8x32x2x64 .f32) (ws wm wk : Vec Ideal S32x2 .f32) (b : Fin 8) :
    act (rect (firstSum (shapeCast S8x32x2x64 x shapeCasts_S8x32x2x64_S8x32x2x64) ws wm wk)) b
      = relu zero (layer (mat ws) (mat wm) (mat wk) (act x b)) := by
  rw [shapeCast_self]
  funext m k o
  exact (rect_apply _ _).trans (congrArg (max · zero) (firstSum_apply x ws wm wk b k o m))

theorem act_rect_mid (x : Vec Ideal S8x32x32x64 .f32) (ws wm wk : Vec Ideal S32x32 .f32) (b : Fin 8) :
    act (rect (midSum x ws wm wk)) b = relu zero (layer (mat ws) (mat wm) (mat wk) (act x b)) := by
  funext m k o
  exact (rect_apply _ _).trans (congrArg (max · zero) (midSum_apply x ws wm wk b k o m))

/-- The scaled last layer at an entry: the normalised layer of batch element `b`. -/
theorem scaled_last_apply (x : Vec Ideal S8x32x32x64 .f32) (ws wm wk : Vec Ideal S2x32 .f32)
    (b : Fin 8) (k : Fin 32) (c : Fin 2) (m : Fin 64) :
    scaled (lastSum x ws wm wk) (ix4 b k c m)
      = normalize one (layer (mat ws) (mat wm) (mat wk) (act x b)) m k c := by
  unfold scaled
  refine (unit_power_term (lastSum x ws wm wk) (Scalar.ofBits .f32 0x3F800000#32) 0x00000000#32 (.inl rfl) rfl
    _ _ _ _ _ _ _ b k c m).trans ?_
  simp only [lastSum_apply]
  rfl

/-! ## The block the body stores -/

/-- What the body leaves in the output block, from the input block and the fifteen weight arrays: the printed
    pieces composed in program order. -/
def blockOut (x0 : Vec Ideal S8x32x2x64 .f32) (w1 w2 w3 : Vec Ideal S32x2 .f32)
    (w4 w5 w6 w7 w8 w9 w10 w11 w12 : Vec Ideal S32x32 .f32) (w13 w14 w15 : Vec Ideal S2x32 .f32) :
    FVec Ideal S8x32x2x64 .f32 :=
  k0_pay1 w15
    (k0_pay9 (k0_pay8 w11 w12 (k0_pay5 (k0_pay4 (k0_pay3 (k0_pay2 x0 w1 w2 w3) w4 w5 w6) w7 w8 w9))
      (k0_pay6 (k0_pay4 (k0_pay3 (k0_pay2 x0 w1 w2 w3) w4 w5 w6) w7 w8 w9) w10)
      (k0_pay7 (k0_pay4 (k0_pay3 (k0_pay2 x0 w1 w2 w3) w4 w5 w6) w7 w8 w9))))
    (k0_pay10 (k0_pay8 w11 w12 (k0_pay5 (k0_pay4 (k0_pay3 (k0_pay2 x0 w1 w2 w3) w4 w5 w6) w7 w8 w9))
      (k0_pay6 (k0_pay4 (k0_pay3 (k0_pay2 x0 w1 w2 w3) w4 w5 w6) w7 w8 w9) w10)
      (k0_pay7 (k0_pay4 (k0_pay3 (k0_pay2 x0 w1 w2 w3) w4 w5 w6) w7 w8 w9))) w13)
    (k0_pay11 (k0_pay8 w11 w12 (k0_pay5 (k0_pay4 (k0_pay3 (k0_pay2 x0 w1 w2 w3) w4 w5 w6) w7 w8 w9))
      (k0_pay6 (k0_pay4 (k0_pay3 (k0_pay2 x0 w1 w2 w3) w4 w5 w6) w7 w8 w9) w10)
      (k0_pay7 (k0_pay4 (k0_pay3 (k0_pay2 x0 w1 w2 w3) w4 w5 w6) w7 w8 w9))) w14)

/-- Entry `(b, k, c, m)` of the stored block is batch element `b` of the input block through the network,
    at antenna `m`, user `k`, channel `c`. -/
theorem blockOut_apply (x0 : Vec Ideal S8x32x2x64 .f32) (w1 w2 w3 : Vec Ideal S32x2 .f32)
    (w4 w5 w6 w7 w8 w9 w10 w11 w12 : Vec Ideal S32x32 .f32) (w13 w14 w15 : Vec Ideal S2x32 .f32)
    (b : Fin 8) (k : Fin 32) (c : Fin 2) (m : Fin 64) :
    blockOut x0 w1 w2 w3 w4 w5 w6 w7 w8 w9 w10 w11 w12 w13 w14 w15 (ix4 b k c m)
      = net (mat w1) (mat w2) (mat w3) (mat w4) (mat w5) (mat w6) (mat w7) (mat w8) (mat w9) (mat w10) (mat w11)
          (mat w12) (mat w13) (mat w14) (mat w15) (act x0 b) m k c := by
  unfold blockOut
  rw [pay1_eq, pay8_eq, pay4_eq, pay3_eq, pay2_eq, scaled_last_apply, act_rect_mid, act_rect_mid, act_rect_mid,
    act_rect_first]
  rfl

end Cert.KernelIdeal.LayerValue

end
-- ==== Proof.KernelBlock.lean ====
/-
  What one grid point writes back. The body loads its input block and the fifteen weight arrays whole, keeps the four
  hidden activations in two scratch buffers (each written whole, then read back whole), and stores one whole output
  block; so the block it leaves is the printed pieces composed in program order, `LayerValue.blockOut`, of the point's
  input blocks — by `LayerValue.blockOut_apply`, batch element by batch element, the network `Gnn.net`.
-/
import proofs.«170046_j44495861186889_2_alg».proof.Proof.Gen.KernelIdeal.Frame
import proofs.«170046_j44495861186889_2_alg».proof.Proof.KernelLayers
import Idealize.ShloMosaic.Lib.Pipeline.Value

set_option maxRecDepth 16384

noncomputable section

namespace Cert.KernelIdeal.BlockValue

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.LayerValue Cert.Gnn

theorem hz4 : (![0, 0, 0, 0] : Fin 4 → Nat) = fun _ => 0 := funext fun a => by fin_cases a <;> rfl
theorem hz2 : (![0, 0] : Fin 2 → Nat) = fun _ => 0 := funext fun a => by fin_cases a <;> rfl

/-- A whole-block load of what a whole-block store left LAST reads that store's payload, whatever was stored
    before it. -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl,
    View.ld_unit_zero rfl]

set_option maxHeartbeats 4000000 in
/-- The output's staging buffer after the body: the printed pieces composed, of the loaded blocks. -/
theorem out_eq (c : Dev nD) (i : grid0.Coords) (arg1 : Memref sig .tc .vmem S8x32x2x64 .f32) (harg1 : arg1.IsWhole) (arg2 : Memref sig .tc .vmem S32x2 .f32) (harg2 : arg2.IsWhole) (arg3 : Memref sig .tc .vmem S32x2 .f32) (harg3 : arg3.IsWhole) (arg4 : Memref sig .tc .vmem S32x2 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S32x32 .f32) (harg11 : arg11.IsWhole) (arg12 : Memref sig .tc .vmem S32x32 .f32) (harg12 : arg12.IsWhole) (arg13 : Memref sig .tc .vmem S32x32 .f32) (harg13 : arg13.IsWhole) (arg14 : Memref sig .tc .vmem S2x32 .f32) (harg14 : arg14.IsWhole) (arg15 : Memref sig .tc .vmem S2x32 .f32) (harg15 : arg15.IsWhole) (arg16 : Memref sig .tc .vmem S2x32 .f32) (harg16 : arg16.IsWhole) (arg17 : Memref sig .tc .vmem S8x32x2x64 .f32) (harg17 : arg17.IsWhole) (arg18 : Memref sig .tc .vmem S8x32x32x64 .f32) (harg18 : arg18.IsWhole) (arg19 : Memref sig .tc .vmem S8x32x32x64 .f32) (harg19 : arg19.IsWhole)
    (x0 : Vec Ideal S8x32x2x64 .f32) (x1 : Vec Ideal S32x2 .f32) (x2 : Vec Ideal S32x2 .f32) (x3 : Vec Ideal S32x2 .f32) (x4 : Vec Ideal S32x32 .f32) (x5 : Vec Ideal S32x32 .f32) (x6 : Vec Ideal S32x32 .f32) (x7 : Vec Ideal S32x32 .f32) (x8 : Vec Ideal S32x32 .f32) (x9 : Vec Ideal S32x32 .f32) (x10 : Vec Ideal S32x32 .f32) (x11 : Vec Ideal S32x32 .f32) (x12 : Vec Ideal S32x32 .f32) (x13 : Vec Ideal S2x32 .f32) (x14 : Vec Ideal S2x32 .f32) (x15 : Vec Ideal S2x32 .f32) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15
      = blockOut x0 x1 x2 x3 x4 x5 x6 x7 x8 x9 x10 x11 x12 x13 x14 x15 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15)]
  unfold kernelRun0_A
  dsimp only
  sl_unfold_words
  rw [View.canon_unit_zero hz4]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S8x32x2x64) hz4, View.ld_unit_zero (S := S8x32x32x64) hz4, View.ld_unit_zero (S := S32x2) hz2,
    View.ld_unit_zero (S := S32x32) hz2, View.ld_unit_zero (S := S2x32) hz2,
    readCov_cons_unit_zero (S := S8x32x32x64) _ hz4]
  rfl

/-! ## The point's blocks -/

variable (m : (ℓ : Loc nD τ sig) → Buf (Elt Ideal) ℓ)

/-- The printed index maps of the input and the output window over the grid: block `t` along the batch axis, block 0
    along the others. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_16.index t (0 : Fin 4) = t.val ∧ win0_16.index t (1 : Fin 4) = 0 ∧ win0_16.index t (2 : Fin 4) = 0
    ∧ win0_16.index t (3 : Fin 4) = 0 :=
  (by decide +kernel : ∀ t : Fin grid0.N, _)

/-- Every weight window's block is block (0, 0): the whole array. -/
theorem widx_facts : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0 :=
  (by decide +kernel : ∀ t : Fin grid0.N, _)

theorem wblk1 (c : Dev nD) (t : Fin cfg0.N) : iblk m c 1 t = m ((c : Thread nD τ).loc main_arg1) := by
  refine Eq.trans ?_ (V_main_arg1 m c)
  funext j
  show V m c main_arg1 (((cfg0.win 1).blk t).view.emb j) = V m c main_arg1 j
  refine congrArg _ (funext fun a => Fin.ext ?_)
  have hw := widx_facts t
  match a with
  | ⟨0, _⟩ => show win0_1.index t (0 : Fin 2) * 32 + 1 * (j 0).val = (j 0).val; omega
  | ⟨1, _⟩ => show win0_1.index t (1 : Fin 2) * 2 + 1 * (j 1).val = (j 1).val; omega

theorem wblk2 (c : Dev nD) (t : Fin cfg0.N) : iblk m c 2 t = m ((c : Thread nD τ).loc main_arg2) := by
  refine Eq.trans ?_ (V_main_arg2 m c)
  funext j
  show V m c main_arg2 (((cfg0.win 2).blk t).view.emb j) = V m c main_arg2 j
  refine congrArg _ (funext fun a => Fin.ext ?_)
  have hw := widx_facts t
  match a with
  | ⟨0, _⟩ => show win0_2.index t (0 : Fin 2) * 32 + 1 * (j 0).val = (j 0).val; omega
  | ⟨1, _⟩ => show win0_2.index t (1 : Fin 2) * 2 + 1 * (j 1).val = (j 1).val; omega

theorem wblk3 (c : Dev nD) (t : Fin cfg0.N) : iblk m c 3 t = m ((c : Thread nD τ).loc main_arg3) := by
  refine Eq.trans ?_ (V_main_arg3 m c)
  funext j
  show V m c main_arg3 (((cfg0.win 3).blk t).view.emb j) = V m c main_arg3 j
  refine congrArg _ (funext fun a => Fin.ext ?_)
  have hw := widx_facts t
  match a with
  | ⟨0, _⟩ => show win0_3.index t (0 : Fin 2) * 32 + 1 * (j 0).val = (j 0).val; omega
  | ⟨1, _⟩ => show win0_3.index t (1 : Fin 2) * 2 + 1 * (j 1).val = (j 1).val; omega

theorem wblk4 (c : Dev nD) (t : Fin cfg0.N) : iblk m c 4 t = m ((c : Thread nD τ).loc main_arg4) := by
  refine Eq.trans ?_ (V_main_arg4 m c)
  funext j
  show V m c main_arg4 (((cfg0.win 4).blk t).view.emb j) = V m c main_arg4 j
  refine congrArg _ (funext fun a => Fin.ext ?_)
  have hw := widx_facts t
  match a with
  | ⟨0, _⟩ => show win0_4.index t (0 : Fin 2) * 32 + 1 * (j 0).val = (j 0).val; omega
  | ⟨1, _⟩ => show win0_4.index t (1 : Fin 2) * 32 + 1 * (j 1).val = (j 1).val; omega

theorem wblk5 (c : Dev nD) (t : Fin cfg0.N) : iblk m c 5 t = m ((c : Thread nD τ).loc main_arg5) := by
  refine Eq.trans ?_ (V_main_arg5 m c)
  funext j
  show V m c main_arg5 (((cfg0.win 5).blk t).view.emb j) = V m c main_arg5 j
  refine congrArg _ (funext fun a => Fin.ext ?_)
  have hw := widx_facts t
  match a with
  | ⟨0, _⟩ => show win0_5.index t (0 : Fin 2) * 32 + 1 * (j 0).val = (j 0).val; omega
  | ⟨1, _⟩ => show win0_5.index t (1 : Fin 2) * 32 + 1 * (j 1).val = (j 1).val; omega

theorem wblk6 (c : Dev nD) (t : Fin cfg0.N) : iblk m c 6 t = m ((c : Thread nD τ).loc main_arg6) := by
  refine Eq.trans ?_ (V_main_arg6 m c)
  funext j
  show V m c main_arg6 (((cfg0.win 6).blk t).view.emb j) = V m c main_arg6 j
  refine congrArg _ (funext fun a => Fin.ext ?_)
  have hw := widx_facts t
  match a with
  | ⟨0, _⟩ => show win0_6.index t (0 : Fin 2) * 32 + 1 * (j 0).val = (j 0).val; omega
  | ⟨1, _⟩ => show win0_6.index t (1 : Fin 2) * 32 + 1 * (j 1).val = (j 1).val; omega

theorem wblk7 (c : Dev nD) (t : Fin cfg0.N) : iblk m c 7 t = m ((c : Thread nD τ).loc main_arg7) := by
  refine Eq.trans ?_ (V_main_arg7 m c)
  funext j
  show V m c main_arg7 (((cfg0.win 7).blk t).view.emb j) = V m c main_arg7 j
  refine congrArg _ (funext fun a => Fin.ext ?_)
  have hw := widx_facts t
  match a with
  | ⟨0, _⟩ => show win0_7.index t (0 : Fin 2) * 32 + 1 * (j 0).val = (j 0).val; omega
  | ⟨1, _⟩ => show win0_7.index t (1 : Fin 2) * 32 + 1 * (j 1).val = (j 1).val; omega

theorem wblk8 (c : Dev nD) (t : Fin cfg0.N) : iblk m c 8 t = m ((c : Thread nD τ).loc main_arg8) := by
  refine Eq.trans ?_ (V_main_arg8 m c)
  funext j
  show V m c main_arg8 (((cfg0.win 8).blk t).view.emb j) = V m c main_arg8 j
  refine congrArg _ (funext fun a => Fin.ext ?_)
  have hw := widx_facts t
  match a with
  | ⟨0, _⟩ => show win0_8.index t (0 : Fin 2) * 32 + 1 * (j 0).val = (j 0).val; omega
  | ⟨1, _⟩ => show win0_8.index t (1 : Fin 2) * 32 + 1 * (j 1).val = (j 1).val; omega

theorem wblk9 (c : Dev nD) (t : Fin cfg0.N) : iblk m c 9 t = m ((c : Thread nD τ).loc main_arg9) := by
  refine Eq.trans ?_ (V_main_arg9 m c)
  funext j
  show V m c main_arg9 (((cfg0.win 9).blk t).view.emb j) = V m c main_arg9 j
  refine congrArg _ (funext fun a => Fin.ext ?_)
  have hw := widx_facts t
  match a with
  | ⟨0, _⟩ => show win0_9.index t (0 : Fin 2) * 32 + 1 * (j 0).val = (j 0).val; omega
  | ⟨1, _⟩ => show win0_9.index t (1 : Fin 2) * 32 + 1 * (j 1).val = (j 1).val; omega

theorem wblk10 (c : Dev nD) (t : Fin cfg0.N) : iblk m c 10 t = m ((c : Thread nD τ).loc main_arg10) := by
  refine Eq.trans ?_ (V_main_arg10 m c)
  funext j
  show V m c main_arg10 (((cfg0.win 10).blk t).view.emb j) = V m c main_arg10 j
  refine congrArg _ (funext fun a => Fin.ext ?_)
  have hw := widx_facts t
  match a with
  | ⟨0, _⟩ => show win0_10.index t (0 : Fin 2) * 32 + 1 * (j 0).val = (j 0).val; omega
  | ⟨1, _⟩ => show win0_10.index t (1 : Fin 2) * 32 + 1 * (j 1).val = (j 1).val; omega

theorem wblk11 (c : Dev nD) (t : Fin cfg0.N) : iblk m c 11 t = m ((c : Thread nD τ).loc main_arg11) := by
  refine Eq.trans ?_ (V_main_arg11 m c)
  funext j
  show V m c main_arg11 (((cfg0.win 11).blk t).view.emb j) = V m c main_arg11 j
  refine congrArg _ (funext fun a => Fin.ext ?_)
  have hw := widx_facts t
  match a with
  | ⟨0, _⟩ => show win0_11.index t (0 : Fin 2) * 32 + 1 * (j 0).val = (j 0).val; omega
  | ⟨1, _⟩ => show win0_11.index t (1 : Fin 2) * 32 + 1 * (j 1).val = (j 1).val; omega

theorem wblk12 (c : Dev nD) (t : Fin cfg0.N) : iblk m c 12 t = m ((c : Thread nD τ).loc main_arg12) := by
  refine Eq.trans ?_ (V_main_arg12 m c)
  funext j
  show V m c main_arg12 (((cfg0.win 12).blk t).view.emb j) = V m c main_arg12 j
  refine congrArg _ (funext fun a => Fin.ext ?_)
  have hw := widx_facts t
  match a with
  | ⟨0, _⟩ => show win0_12.index t (0 : Fin 2) * 32 + 1 * (j 0).val = (j 0).val; omega
  | ⟨1, _⟩ => show win0_12.index t (1 : Fin 2) * 32 + 1 * (j 1).val = (j 1).val; omega

theorem wblk13 (c : Dev nD) (t : Fin cfg0.N) : iblk m c 13 t = m ((c : Thread nD τ).loc main_arg13) := by
  refine Eq.trans ?_ (V_main_arg13 m c)
  funext j
  show V m c main_arg13 (((cfg0.win 13).blk t).view.emb j) = V m c main_arg13 j
  refine congrArg _ (funext fun a => Fin.ext ?_)
  have hw := widx_facts t
  match a with
  | ⟨0, _⟩ => show win0_13.index t (0 : Fin 2) * 2 + 1 * (j 0).val = (j 0).val; omega
  | ⟨1, _⟩ => show win0_13.index t (1 : Fin 2) * 32 + 1 * (j 1).val = (j 1).val; omega

theorem wblk14 (c : Dev nD) (t : Fin cfg0.N) : iblk m c 14 t = m ((c : Thread nD τ).loc main_arg14) := by
  refine Eq.trans ?_ (V_main_arg14 m c)
  funext j
  show V m c main_arg14 (((cfg0.win 14).blk t).view.emb j) = V m c main_arg14 j
  refine congrArg _ (funext fun a => Fin.ext ?_)
  have hw := widx_facts t
  match a with
  | ⟨0, _⟩ => show win0_14.index t (0 : Fin 2) * 2 + 1 * (j 0).val = (j 0).val; omega
  | ⟨1, _⟩ => show win0_14.index t (1 : Fin 2) * 32 + 1 * (j 1).val = (j 1).val; omega

theorem wblk15 (c : Dev nD) (t : Fin cfg0.N) : iblk m c 15 t = m ((c : Thread nD τ).loc main_arg15) := by
  refine Eq.trans ?_ (V_main_arg15 m c)
  funext j
  show V m c main_arg15 (((cfg0.win 15).blk t).view.emb j) = V m c main_arg15 j
  refine congrArg _ (funext fun a => Fin.ext ?_)
  have hw := widx_facts t
  match a with
  | ⟨0, _⟩ => show win0_15.index t (0 : Fin 2) * 2 + 1 * (j 0).val = (j 0).val; omega
  | ⟨1, _⟩ => show win0_15.index t (1 : Fin 2) * 32 + 1 * (j 1).val = (j 1).val; omega

/-- The input as the region finds it is the argument with the antenna axis moved last. -/
theorem V_v0 (c : Dev nD) (b : Fin 1024) (k : Fin 32) (d : Fin 2) (a : Fin 64) :
    V m c main_v0 (ix4 b k d a) = m ((c : Thread nD τ).loc main_arg0) (ix4 b a k d) := by
  have e : (V m c main_v0 : S1024x32x2x64.Idx → EReal)
      = transpose S1024x32x2x64 [0, 2, 3, 1] (m ((c : Thread nD τ).loc main_arg0)) transposes_S1024x64x32x2_S1024x32x2x64_0_2_3_1 := by
    show StableHlo.after hostOps0 (fun b => m (c, b)) (Proc.devRef .tc main_v0) = _
    after_results
  rw [e]
  refine transpose_apply _ _ _ _ (ix4 b a k d) fun q => ?_
  match q with
  | ⟨0, _⟩ => rfl
  | ⟨1, _⟩ => rfl
  | ⟨2, _⟩ => rfl
  | ⟨3, _⟩ => rfl

/-- The input window's block at point `t` holds batch elements `8t … 8t+7`. -/
theorem xblk (c : Dev nD) (t : Fin cfg0.N) (b : Fin 8) (k : Fin 32) (d : Fin 2) (a : Fin 64)
    (hb : t.val * 8 + b.val < 1024) :
    iblk m c 0 t (ix4 b k d a) = V m c main_v0 (ix4 (⟨t.val * 8 + b.val, hb⟩ : Fin 1024) k d a) := by
  show V m c main_v0 (((cfg0.win 0).blk t).view.emb (ix4 b k d a)) = _
  refine congrArg _ (funext fun q => Fin.ext ?_)
  obtain ⟨e0, e1, e2, e3, -⟩ := idx_facts t
  match q with
  | ⟨0, _⟩ => show win0_0.index t (0 : Fin 4) * 8 + 1 * b.val = t.val * 8 + b.val; omega
  | ⟨1, _⟩ => show win0_0.index t (1 : Fin 4) * 32 + 1 * k.val = k.val; omega
  | ⟨2, _⟩ => show win0_0.index t (2 : Fin 4) * 2 + 1 * d.val = d.val; omega
  | ⟨3, _⟩ => show win0_0.index t (3 : Fin 4) * 64 + 1 * a.val = a.val; omega

/-! ## The region's result array -/

/-- The region's result `[1024, 32, 2, 64]` (batch, user, channel, antenna): `Gnn.G` with the antenna axis last. -/
def KG (a0 : S1024x64x32x2.Idx → EReal) (a1 a2 a3 : S32x2.Idx → EReal)
    (a4 a5 a6 a7 a8 a9 a10 a11 a12 : S32x32.Idx → EReal) (a13 a14 a15 : S2x32.Idx → EReal) :
    S1024x32x2x64.Idx → EReal := fun i =>
  G a0 a1 a2 a3 a4 a5 a6 a7 a8 a9 a10 a11 a12 a13 a14 a15
    (ix4 (⟨(i 0).val, (i 0).isLt⟩ : Fin 1024) (⟨(i 3).val, (i 3).isLt⟩ : Fin 64) (⟨(i 1).val, (i 1).isLt⟩ : Fin 32)
      (⟨(i 2).val, (i 2).isLt⟩ : Fin 2))

set_option maxHeartbeats 2000000 in
/-- WHAT POINT `t` WRITES BACK is block `t` of `KG` of the argument arrays. -/
theorem flushed_eq (c : Dev nD) (t : Fin cfg0.N) :
    (dats m 0 c).flushed 16 t = ((cfg0.win 16).blk t).view.read (Elt Ideal) (KG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  have ht : t.val < 128 := lt_of_lt_of_eq t.isLt N_0
  show (cfg0.win 16).cut (grid0.coords t) ((dats m 0 c).after 16 t) = _
  rw [after0_16]
  unfold outsAt0
  rw [out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)]
  refine funext fun (y : S8x32x2x64.Idx) => ?_
  obtain ⟨b, k, cc, a, rfl⟩ : ∃ (b : Fin 8) (k : Fin 32) (cc : Fin 2) (a : Fin 64), y = ix4 b k cc a :=
    ⟨y 0, y 1, y 2, y 3, eq_ix4 y⟩
  have hb : t.val * 8 + b.val < 1024 := by have := b.isLt; omega
  have he : ((cfg0.win 16).blk t).view.emb (ix4 b k cc a) = ix4 (⟨t.val * 8 + b.val, hb⟩ : Fin 1024) k cc a := by
    refine funext fun q => Fin.ext ?_
    obtain ⟨-, -, -, -, e4, e5, e6, e7⟩ := idx_facts t
    match q with
    | ⟨0, _⟩ => show win0_16.index t (0 : Fin 4) * 8 + 1 * b.val = t.val * 8 + b.val; omega
    | ⟨1, _⟩ => show win0_16.index t (1 : Fin 4) * 32 + 1 * k.val = k.val; omega
    | ⟨2, _⟩ => show win0_16.index t (2 : Fin 4) * 2 + 1 * cc.val = cc.val; omega
    | ⟨3, _⟩ => show win0_16.index t (3 : Fin 4) * 64 + 1 * a.val = a.val; omega
  show blockOut _ _ _ _ _ _ _ _ _ _ _ _ _ _ _ _ (ix4 b k cc a) = KG _ _ _ _ _ _ _ _ _ _ _ _ _ _ _ _ (((cfg0.win 16).blk t).view.emb (ix4 b k cc a))
  rw [he, blockOut_apply, wblk1 m c t, wblk2 m c t, wblk3 m c t, wblk4 m c t, wblk5 m c t, wblk6 m c t, wblk7 m c t, wblk8 m c t, wblk9 m c t, wblk10 m c t, wblk11 m c t, wblk12 m c t, wblk13 m c t, wblk14 m c t, wblk15 m c t]
  show _ = G _ _ _ _ _ _ _ _ _ _ _ _ _ _ _ _ (ix4 (⟨t.val * 8 + b.val, hb⟩ : Fin 1024) a k cc)
  rw [G_apply]
  refine congrArg (fun x => net _ _ _ _ _ _ _ _ _ _ _ _ _ _ _ x a k cc) ?_
  funext a' k' d
  exact (xblk m c t b k' d a' hb).trans (V_v0 m c _ k' d a')

/-- An index of the result array is in point `t`'s block iff each coordinate is in the block's range on its axis. -/
theorem mem_blk (t : Fin cfg0.N) (i : S1024x32x2x64.Idx) :
    i ∈ ((cfg0.win 16).blk t).view.set ↔ ∀ a : Fin 4, win0_16.index t a * S8x32x2x64.size a ≤ (i a).val
      ∧ (i a).val < win0_16.index t a * S8x32x2x64.size a + S8x32x2x64.size a := by
  show i ∈ ((View.whole main_v1).slice (win0_16.rect t)).set ↔ _
  rw [View.set_slice_whole, Rect.mem_set_unit]
  exact Iff.rfl

/-- Every index of the result array is in the block of the point `b / 8`. -/
theorem cover (i : S1024x32x2x64.Idx) :
    ∃ t : Fin cfg0.N, (cfg0.win 16).flush t = true ∧ i ∈ ((cfg0.win 16).blk t).view.set := by
  have h0 : (i 0).val < 1024 := (i 0).isLt
  have h1 : (i 1).val < 32 := (i 1).isLt
  have h2 : (i 2).val < 2 := (i 2).isLt
  have h3 : (i 3).val < 64 := (i 3).isLt
  have hN : cfg0.N = 128 := N_0
  have hlt : (i 0).val / 8 < cfg0.N := by rw [hN]; omega
  obtain ⟨-, -, -, -, e4, e5, e6, e7⟩ := idx_facts ⟨(i 0).val / 8, hlt⟩
  have e4' : win0_16.index ⟨(i 0).val / 8, hlt⟩ (0 : Fin 4) = (i 0).val / 8 := e4
  refine ⟨⟨(i 0).val / 8, hlt⟩, flush0_16 _, ?_⟩
  rw [mem_blk]
  intro a
  match a with
  | ⟨0, _⟩ =>
    show win0_16.index ⟨(i 0).val / 8, hlt⟩ (0 : Fin 4) * 8 ≤ (i 0).val
      ∧ (i 0).val < win0_16.index ⟨(i 0).val / 8, hlt⟩ (0 : Fin 4) * 8 + 8
    omega
  | ⟨1, _⟩ =>
    show win0_16.index ⟨(i 0).val / 8, hlt⟩ (1 : Fin 4) * 32 ≤ (i 1).val
      ∧ (i 1).val < win0_16.index ⟨(i 0).val / 8, hlt⟩ (1 : Fin 4) * 32 + 32
    omega
  | ⟨2, _⟩ =>
    show win0_16.index ⟨(i 0).val / 8, hlt⟩ (2 : Fin 4) * 2 ≤ (i 2).val
      ∧ (i 2).val < win0_16.index ⟨(i 0).val / 8, hlt⟩ (2 : Fin 4) * 2 + 2
    omega
  | ⟨3, _⟩ =>
    show win0_16.index ⟨(i 0).val / 8, hlt⟩ (3 : Fin 4) * 64 ≤ (i 3).val
      ∧ (i 3).val < win0_16.index ⟨(i 0).val / 8, hlt⟩ (3 : Fin 4) * 64 + 64
    omega

/-- THE REGION'S RESULT ARRAY after the run: `KG` of the argument arrays. -/
theorem final (c : Dev nD) : (dats m 0 c).arrAt 16 cfg0.N = KG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (dats m 0 c).arrAt_eq_of_cover 16 _ (fun t _ => flushed_eq m c t) cover

end Cert.KernelIdeal.BlockValue

end
-- ==== Proof.KernelRun.lean ====
/-
  The idealized kernel's run, read: after the region the result array holds `KG` of the arguments (the blocks of all
  128 points cover it), and the one host operation after the region moves the antenna axis back, so @main's result
  `[1024, 64, 32, 2]` is `Gnn.G` of the sixteen argument arrays; the arguments end unchanged.
-/
import proofs.«170046_j44495861186889_2_alg».proof.Proof.Gen.KernelIdeal.Frame
import proofs.«170046_j44495861186889_2_alg».proof.Proof.KernelBlock
import Idealize.ShloMosaic.Lib.StableHlo.Run

set_option maxRecDepth 16384

noncomputable section

namespace Cert.KernelIdeal.RunValue

open Idealize.ShloMosaic Idealize.ShloMosaic.TcCoe Idealize.ShloMosaic.ValueIdx
open Idealize.SL Idealize.SL.Sem Idealize.ShloMosaic.StableHlo
open Idealize.ShloMosaic.Pipeline (Dat)
open Cert.KernelIdeal Cert.KernelIdeal.Gen Cert.KernelIdeal.BlockValue Cert.Gnn

variable (m : (ℓ : Loc nD τ sig) → Buf (Elt Ideal) ℓ) (ρ : Dev nD → PrngReg)

/-- `KG` with the antenna axis moved back is `G`. -/
theorem transpose_KG (a0 : S1024x64x32x2.Idx → EReal) (a1 a2 a3 : S32x2.Idx → EReal)
    (a4 a5 a6 a7 a8 a9 a10 a11 a12 : S32x32.Idx → EReal) (a13 a14 a15 : S2x32.Idx → EReal) :
    transpose S1024x64x32x2 [0, 3, 1, 2] (KG a0 a1 a2 a3 a4 a5 a6 a7 a8 a9 a10 a11 a12 a13 a14 a15)
        transposes_S1024x32x2x64_S1024x64x32x2_0_3_1_2
      = G a0 a1 a2 a3 a4 a5 a6 a7 a8 a9 a10 a11 a12 a13 a14 a15 := by
  funext i
  obtain ⟨b, a, k, cc, rfl⟩ : ∃ (b : Fin 1024) (a : Fin 64) (k : Fin 32) (cc : Fin 2), i = ix4 b a k cc :=
    ⟨i 0, i 1, i 2, i 3, eq_ix4 i⟩
  refine (transpose_apply _ _ _ _ (ix4 b k cc a) fun q => ?_).trans rfl
  match q with
  | ⟨0, _⟩ => rfl
  | ⟨1, _⟩ => rfl
  | ⟨2, _⟩ => rfl
  | ⟨3, _⟩ => rfl

/-- @main's result after the host operation that follows the region. -/
theorem tail_eq (c : Dev nD) :
    Pipeline.afterTail₀ cfgs (dats m) 0 (V0 m) [hostOps1] c main_v2 = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  unfold Pipeline.afterTail₀
  show StableHlo.after hostOps1 _ (Proc.devRef .tc main_v2) = _
  after_results
  refine Eq.trans (congrArg (fun y => transpose S1024x64x32x2 [0, 3, 1, 2] y transposes_S1024x32x2x64_S1024x64x32x2_0_3_1_2)
    ((Pipeline.withArrays_arr spec0 launch0.win.arr_inj c _ _ 16).trans (final m c))) ?_
  exact transpose_KG _ _ _ _ _ _ _ _ _ _ _ _ _ _ _ _

/-- Every weakly fair execution of the idealized kernel's @main terminates with its result at `G` of the arguments
    and the arguments unchanged. -/
theorem run : θ_run defs (onTc (τ := τ) (main (F := Ideal))) ⟨m, fun _ => 0, ρ⟩ (fun r => ∀ c : Dev nD,
      r.2.mem ((c.tc : Thread nD τ).loc main_v2) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c)))⟩)
    (run_main m ρ)

end Cert.KernelIdeal.RunValue

end
-- ==== Proof.RefValue.lean ====
/-
  The reference program computes the network `Cert.Gnn.G` of its sixteen argument arrays.

  Read at one entry (batch element b, antenna m, user k, output feature o), each layer of the program is the sum of
  three products over the input feature d: the input entry against the first weight matrix, the input summed over the
  users against the second, the input summed over the antennas against the third, added in this order; a rectified
  layer then takes the maximum with the value of the zero word. The two inner sums start from the value of the zero
  word, which is the extended real 0, so they are plain sums. After the fifth layer the total power of a batch element
  is a sum over three axes at once: the sum over the indices whose batch coordinate is b, which is the iterated sum
  over the other three coordinates; a finite sum in another order is the specification's power. Nothing is
  distributed or cancelled, so no entry needs to be finite.
-/
import proofs.«170046_j44495861186889_2_alg».proof.Proof.RefReadPatched
import proofs.«170046_j44495861186889_2_alg».proof.Proof.GnnSpec

noncomputable section

namespace Cert.ReferenceIdeal.RefValue

open Cert.ReferenceIdeal Cert.ReferenceIdeal.Gen Cert.ReferenceIdeal.ReadP Idealize.ShloMosaic Idealize.ShloMosaic.ValueIdx
  Idealize.SL.Sem Idealize.ShloMosaic.StableHlo
open scoped BigOperators

/-! ## A rank-4 index set as the product of its coordinate ranges -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- Batch element `b` of an array `[1024, 64, 32, D]` as a function of antenna, user and feature. -/
def slab {D : Nat} (X : (⟨4, ![1024, 64, 32, D]⟩ : Shape).Idx → EReal) (b : Fin 1024) : Fin 64 → Fin 32 → Fin D → EReal :=
  fun m k d => X (ix4 b m k d)

/-! ## A sum over the three non-batch axes at once -/

/-- Dropping the antenna, user and channel coordinates of an index leaves its batch coordinate. -/
theorem drop_ix4 (h : S1024x64x32x2.ReducesTo [1, 2, 3] S1024) (b : Fin 1024) (m : Fin 64) (k : Fin 32) (c : Fin 2) :
    h.drop (ix4 b m k c) = ix1 b :=
  funext fun a => Fin.ext (by
    match a with
    | ⟨0, _⟩ => exact h.drop_apply_val_of_eq (ix4 b m k c) 0 0)

/-- The sum over the indices that drop to batch element `b` is the iterated sum over antennas, users and channels
    at `b`: every other batch element contributes nothing, and at `b` every index is kept. -/
theorem sum_filter_batch (h : S1024x64x32x2.ReducesTo [1, 2, 3] S1024) (X : S1024x64x32x2.Idx → EReal) (b : Fin 1024)
    [DecidablePred fun i : S1024x64x32x2.Idx => h.drop i = ix1 b] :
    ∑ i ∈ Finset.univ.filter (fun i : S1024x64x32x2.Idx => h.drop i = ix1 b), X i
      = ∑ m : Fin 64, ∑ k : Fin 32, ∑ c : Fin 2, X (ix4 b m k c) := by
  rw [Finset.sum_filter, sum_idx4]
  refine (Finset.sum_eq_single b (fun b' _ hb' => ?_) (fun hb => absurd (Finset.mem_univ b) hb)).trans ?_
  · refine Finset.sum_eq_zero fun m _ => Finset.sum_eq_zero fun k _ => Finset.sum_eq_zero fun c _ => if_neg ?_
    rw [drop_ix4]
    exact fun e => hb' (congrFun e ⟨0, Nat.one_pos⟩)
  · exact Finset.sum_congr rfl fun m _ => Finset.sum_congr rfl fun k _ => Finset.sum_congr rfl fun c _ =>
      if_pos (drop_ix4 h b m k c)

/-- The exact sum over the three non-batch axes, read at batch element `b`: the initial value plus the iterated sum. -/
theorem hostReduceAdd_batch (h : S1024x64x32x2.ReducesTo [1, 2, 3] S1024) (X : S1024x64x32x2.Idx → EReal) (init : EReal)
    (b : Fin 1024) :
    Ideal.hostReduceAdd h X init (ix1 b) = init + ∑ m : Fin 64, ∑ k : Fin 32, ∑ c : Fin 2, X (ix4 b m k c) := by
  unfold Ideal.hostReduceAdd
  exact congrArg (fun s => init + s) (sum_filter_batch h X b)

section Stages

variable (x0 : (⟨S1024x64x32x2, .f32⟩ : BufTy).Contents (Elt Ideal))
  (x1 x2 x3 : (⟨S32x2, .f32⟩ : BufTy).Contents (Elt Ideal))
  (x4 x5 x6 x7 x8 x9 x10 x11 x12 : (⟨S32x32, .f32⟩ : BufTy).Contents (Elt Ideal))
  (x13 x14 x15 : (⟨S2x32, .f32⟩ : BufTy).Contents (Elt Ideal))

/-! ## The first layer -/

/-- The layer's input summed over the users, at batch element `b`, antenna `m`, feature `d`: the sum starts from the
    value of the zero word, which is 0. -/
theorem overUsers1 (b : Fin 1024) (m : Fin 64) (d : Fin 2) :
    val_main_v0 (F := Ideal) x0 (ix3 b m d) = ∑ k' : Fin 32, x0 (ix4 b m k' d) := by
  rw [val_main_v0_apply, val_main_cst_apply, Ideal.ofBits_def, Ideal.ofBits_zero_f32, zero_add]
  exact Finset.sum_congr rfl fun k' _ => congrArg x0
    (funext fun a => Fin.ext (by match a with | ⟨0, _⟩ => rfl | ⟨1, _⟩ => rfl | ⟨2, _⟩ => rfl | ⟨3, _⟩ => rfl))

/-- The layer's input summed over the antennas, at batch element `b`, user `k`, feature `d`. -/
theorem overAntennas1 (b : Fin 1024) (k : Fin 32) (d : Fin 2) :
    val_main_v1 (F := Ideal) x0 (ix3 b k d) = ∑ m' : Fin 64, x0 (ix4 b m' k d) := by
  rw [val_main_v1_apply, val_main_cst_0_apply, Ideal.ofBits_def, Ideal.ofBits_zero_f32, zero_add]
  exact Finset.sum_congr rfl fun m' _ => congrArg x0
    (funext fun a => Fin.ext (by match a with | ⟨0, _⟩ => rfl | ⟨1, _⟩ => rfl | ⟨2, _⟩ => rfl | ⟨3, _⟩ => rfl))

/-- The edge's own term: the input's features against the first weight matrix. -/
theorem edge1 (b : Fin 1024) (m : Fin 64) (k : Fin 32) (o : Fin 32) :
    val_main_v2 (F := Ideal) x0 x1 (ix4 b m k o) = ∑ d : Fin 2, x0 (ix4 b m k d) * x1 (ix2 o d) := by
  rw [val_main_v2_apply]
  exact Finset.sum_congr rfl fun d _ => congrArg₂ (fun u v : EReal => u * v)
    (congrArg x0 (funext fun a => Fin.ext (by match a with | ⟨0, _⟩ => rfl | ⟨1, _⟩ => rfl | ⟨2, _⟩ => rfl | ⟨3, _⟩ => rfl)))
    (congrArg x1 (funext fun a => Fin.ext (by match a with | ⟨0, _⟩ => rfl | ⟨1, _⟩ => rfl)))

/-- The antenna's term: its aggregate over the users against the second weight matrix, the same for every user. -/
theorem antenna1 (b : Fin 1024) (m : Fin 64) (k : Fin 32) (o : Fin 32) :
    val_main_v5 (F := Ideal) x0 x2 (ix4 b m k o)
      = ∑ d : Fin 2, (∑ k' : Fin 32, x0 (ix4 b m k' d)) * x2 (ix2 o d) := by
  rw [val_main_v5_apply, val_main_v4_apply,
    show idx_main_v4 (idx_main_v5 (ix4 b m k o)) = ix3 b m o from
      funext fun a => Fin.ext (by match a with | ⟨0, _⟩ => rfl | ⟨1, _⟩ => rfl | ⟨2, _⟩ => rfl),
    val_main_v3_apply]
  exact Finset.sum_congr rfl fun d _ => congrArg₂ (fun u v : EReal => u * v)
    ((congrArg (val_main_v0 (F := Ideal) x0)
        (show lidx_main_v3 (ix3 b m o) d = ix3 b m d from
          funext fun a => Fin.ext (by match a with | ⟨0, _⟩ => rfl | ⟨1, _⟩ => rfl | ⟨2, _⟩ => rfl))).trans
      (overUsers1 x0 b m d))
    (congrArg x2 (show ridx_main_v3 (ix3 b m o) d = ix2 o d from
      funext fun a => Fin.ext (by match a with | ⟨0, _⟩ => rfl | ⟨1, _⟩ => rfl)))

/-- The user's term: its aggregate over the antennas against the third weight matrix, the same for every antenna. -/
theorem user1 (b : Fin 1024) (m : Fin 64) (k : Fin 32) (o : Fin 32) :
    val_main_v9 (F := Ideal) x0 x3 (ix4 b m k o)
      = ∑ d : Fin 2, (∑ m' : Fin 64, x0 (ix4 b m' k d)) * x3 (ix2 o d) := by
  rw [val_main_v9_apply, val_main_v8_apply,
    show idx_main_v8 (idx_main_v9 (ix4 b m k o)) = ix3 b k o from
      funext fun a => Fin.ext (by match a with | ⟨0, _⟩ => rfl | ⟨1, _⟩ => rfl | ⟨2, _⟩ => rfl),
    val_main_v7_apply]
  exact Finset.sum_congr rfl fun d _ => congrArg₂ (fun u v : EReal => u * v)
    ((congrArg (val_main_v1 (F := Ideal) x0)
        (show lidx_main_v7 (ix3 b k o) d = ix3 b k d from
          funext fun a => Fin.ext (by match a with | ⟨0, _⟩ => rfl | ⟨1, _⟩ => rfl | ⟨2, _⟩ => rfl))).trans
      (overAntennas1 x0 b k d))
    (congrArg x3 (show ridx_main_v7 (ix3 b k o) d = ix2 o d from
      funext fun a => Fin.ext (by match a with | ⟨0, _⟩ => rfl | ⟨1, _⟩ => rfl)))

/-- The layer at one entry: edge + antenna + user, then the maximum with the value of the zero word. -/
theorem layer1_at (b : Fin 1024) (m : Fin 64) (k : Fin 32) (o : Fin 32) :
    val_main_v11 (F := Ideal) x0 x1 x2 x3 (ix4 b m k o)
      = Gnn.relu Gnn.zero (Gnn.layer (Gnn.mat x1) (Gnn.mat x2) (Gnn.mat x3) (slab x0 b)) m k o := by
  rw [val_main_v11_apply, val_main_v10_apply, val_main_v6_apply, edge1, antenna1, user1,
    val_main_call0_v0_apply, val_main_call0_cst_apply]
  rfl

/-! ## The second layer -/

/-- The layer's input summed over the users, at batch element `b`, antenna `m`, feature `d`: the sum starts from the
    value of the zero word, which is 0. -/
theorem overUsers2 (b : Fin 1024) (m : Fin 64) (d : Fin 32) :
    val_main_v12 (F := Ideal) x0 x1 x2 x3 (ix3 b m d) = ∑ k' : Fin 32, (val_main_v11 (F := Ideal) x0 x1 x2 x3) (ix4 b m k' d) := by
  rw [val_main_v12_apply, val_main_cst_1_apply, Ideal.ofBits_def, Ideal.ofBits_zero_f32, zero_add]
  exact Finset.sum_congr rfl fun k' _ => congrArg (val_main_v11 (F := Ideal) x0 x1 x2 x3)
    (funext fun a => Fin.ext (by match a with | ⟨0, _⟩ => rfl | ⟨1, _⟩ => rfl | ⟨2, _⟩ => rfl | ⟨3, _⟩ => rfl))

/-- The layer's input summed over the antennas, at batch element `b`, user `k`, feature `d`. -/
theorem overAntennas2 (b : Fin 1024) (k : Fin 32) (d : Fin 32) :
    val_main_v13 (F := Ideal) x0 x1 x2 x3 (ix3 b k d) = ∑ m' : Fin 64, (val_main_v11 (F := Ideal) x0 x1 x2 x3) (ix4 b m' k d) := by
  rw [val_main_v13_apply, val_main_cst_2_apply, Ideal.ofBits_def, Ideal.ofBits_zero_f32, zero_add]
  exact Finset.sum_congr rfl fun m' _ => congrArg (val_main_v11 (F := Ideal) x0 x1 x2 x3)
    (funext fun a => Fin.ext (by match a with | ⟨0, _⟩ => rfl | ⟨1, _⟩ => rfl | ⟨2, _⟩ => rfl | ⟨3, _⟩ => rfl))

/-- The edge's own term: the input's features against the first weight matrix. -/
theorem edge2 (b : Fin 1024) (m : Fin 64) (k : Fin 32) (o : Fin 32) :
    val_main_v14 (F := Ideal) x0 x1 x2 x3 x4 (ix4 b m k o) = ∑ d : Fin 32, (val_main_v11 (F := Ideal) x0 x1 x2 x3) (ix4 b m k d) * x4 (ix2 o d) := by
  rw [val_main_v14_apply]
  exact Finset.sum_congr rfl fun d _ => congrArg₂ (fun u v : EReal => u * v)
    (congrArg (val_main_v11 (F := Ideal) x0 x1 x2 x3) (funext fun a => Fin.ext (by match a with | ⟨0, _⟩ => rfl | ⟨1, _⟩ => rfl | ⟨2, _⟩ => rfl | ⟨3, _⟩ => rfl)))
    (congrArg x4 (funext fun a => Fin.ext (by match a with | ⟨0, _⟩ => rfl | ⟨1, _⟩ => rfl)))

/-- The antenna's term: its aggregate over the users against the second weight matrix, the same for every user. -/
theorem antenna2 (b : Fin 1024) (m : Fin 64) (k : Fin 32) (o : Fin 32) :
    val_main_v17 (F := Ideal) x0 x1 x2 x3 x5 (ix4 b m k o)
      = ∑ d : Fin 32, (∑ k' : Fin 32, (val_main_v11 (F := Ideal) x0 x1 x2 x3) (ix4 b m k' d)) * x5 (ix2 o d) := by
  rw [val_main_v17_apply, val_main_v16_apply,
    show idx_main_v16 (idx_main_v17 (ix4 b m k o)) = ix3 b m o from
      funext fun a => Fin.ext (by match a with | ⟨0, _⟩ => rfl | ⟨1, _⟩ => rfl | ⟨2, _⟩ => rfl),
    val_main_v15_apply]
  exact Finset.sum_congr rfl fun d _ => congrArg₂ (fun u v : EReal => u * v)
    ((congrArg (val_main_v12 (F := Ideal) x0 x1 x2 x3)
        (show lidx_main_v15 (ix3 b m o) d = ix3 b m d from
          funext fun a => Fin.ext (by match a with | ⟨0, _⟩ => rfl | ⟨1, _⟩ => rfl | ⟨2, _⟩ => rfl))).trans
      (overUsers2 x0 x1 x2 x3 b m d))
    (congrArg x5 (show ridx_main_v15 (ix3 b m o) d = ix2 o d from
      funext fun a => Fin.ext (by match a with | ⟨0, _⟩ => rfl | ⟨1, _⟩ => rfl)))

/-- The user's term: its aggregate over the antennas against the third weight matrix, the same for every antenna. -/
theorem user2 (b : Fin 1024) (m : Fin 64) (k : Fin 32) (o : Fin 32) :
    val_main_v21 (F := Ideal) x0 x1 x2 x3 x6 (ix4 b m k o)
      = ∑ d : Fin 32, (∑ m' : Fin 64, (val_main_v11 (F := Ideal) x0 x1 x2 x3) (ix4 b m' k d)) * x6 (ix2 o d) := by
  rw [val_main_v21_apply, val_main_v20_apply,
    show idx_main_v20 (idx_main_v21 (ix4 b m k o)) = ix3 b k o from
      funext fun a => Fin.ext (by match a with | ⟨0, _⟩ => rfl | ⟨1, _⟩ => rfl | ⟨2, _⟩ => rfl),
    val_main_v19_apply]
  exact Finset.sum_congr rfl fun d _ => congrArg₂ (fun u v : EReal => u * v)
    ((congrArg (val_main_v13 (F := Ideal) x0 x1 x2 x3)
        (show lidx_main_v19 (ix3 b k o) d = ix3 b k d from
          funext fun a => Fin.ext (by match a with | ⟨0, _⟩ => rfl | ⟨1, _⟩ => rfl | ⟨2, _⟩ => rfl))).trans
      (overAntennas2 x0 x1 x2 x3 b k d))
    (congrArg x6 (show ridx_main_v19 (ix3 b k o) d = ix2 o d from
      funext fun a => Fin.ext (by match a with | ⟨0, _⟩ => rfl | ⟨1, _⟩ => rfl)))

/-- The layer at one entry: edge + antenna + user, then the maximum with the value of the zero word. -/
theorem layer2_at (b : Fin 1024) (m : Fin 64) (k : Fin 32) (o : Fin 32) :
    val_main_v23 (F := Ideal) x0 x1 x2 x3 x4 x5 x6 (ix4 b m k o)
      = Gnn.relu Gnn.zero (Gnn.layer (Gnn.mat x4) (Gnn.mat x5) (Gnn.mat x6) (slab (val_main_v11 (F := Ideal) x0 x1 x2 x3) b)) m k o := by
  rw [val_main_v23_apply, val_main_v22_apply, val_main_v18_apply, edge2, antenna2, user2,
    val_main_call1_v0_apply, val_main_call1_cst_apply]
  rfl

/-! ## The third layer -/

/-- The layer's input summed over the users, at batch element `b`, antenna `m`, feature `d`: the sum starts from the
    value of the zero word, which is 0. -/
theorem overUsers3 (b : Fin 1024) (m : Fin 64) (d : Fin 32) :
    val_main_v24 (F := Ideal) x0 x1 x2 x3 x4 x5 x6 (ix3 b m d) = ∑ k' : Fin 32, (val_main_v23 (F := Ideal) x0 x1 x2 x3 x4 x5 x6) (ix4 b m k' d) := by
  rw [val_main_v24_apply, val_main_cst_3_apply, Ideal.ofBits_def, Ideal.ofBits_zero_f32, zero_add]
  exact Finset.sum_congr rfl fun k' _ => congrArg (val_main_v23 (F := Ideal) x0 x1 x2 x3 x4 x5 x6)
    (funext fun a => Fin.ext (by match a with | ⟨0, _⟩ => rfl | ⟨1, _⟩ => rfl | ⟨2, _⟩ => rfl | ⟨3, _⟩ => rfl))

/-- The layer's input summed over the antennas, at batch element `b`, user `k`, feature `d`. -/
theorem overAntennas3 (b : Fin 1024) (k : Fin 32) (d : Fin 32) :
    val_main_v25 (F := Ideal) x0 x1 x2 x3 x4 x5 x6 (ix3 b k d) = ∑ m' : Fin 64, (val_main_v23 (F := Ideal) x0 x1 x2 x3 x4 x5 x6) (ix4 b m' k d) := by
  rw [val_main_v25_apply, val_main_cst_4_apply, Ideal.ofBits_def, Ideal.ofBits_zero_f32, zero_add]
  exact Finset.sum_congr rfl fun m' _ => congrArg (val_main_v23 (F := Ideal) x0 x1 x2 x3 x4 x5 x6)
    (funext fun a => Fin.ext (by match a with | ⟨0, _⟩ => rfl | ⟨1, _⟩ => rfl | ⟨2, _⟩ => rfl | ⟨3, _⟩ => rfl))

/-- The edge's own term: the input's features against the first weight matrix. -/
theorem edge3 (b : Fin 1024) (m : Fin 64) (k : Fin 32) (o : Fin 32) :
    val_main_v26 (F := Ideal) x0 x1 x2 x3 x4 x5 x6 x7 (ix4 b m k o) = ∑ d : Fin 32, (val_main_v23 (F := Ideal) x0 x1 x2 x3 x4 x5 x6) (ix4 b m k d) * x7 (ix2 o d) := by
  rw [val_main_v26_apply]
  exact Finset.sum_congr rfl fun d _ => congrArg₂ (fun u v : EReal => u * v)
    (congrArg (val_main_v23 (F := Ideal) x0 x1 x2 x3 x4 x5 x6) (funext fun a => Fin.ext (by match a with | ⟨0, _⟩ => rfl | ⟨1, _⟩ => rfl | ⟨2, _⟩ => rfl | ⟨3, _⟩ => rfl)))
    (congrArg x7 (funext fun a => Fin.ext (by match a with | ⟨0, _⟩ => rfl | ⟨1, _⟩ => rfl)))

/-- The antenna's term: its aggregate over the users against the second weight matrix, the same for every user. -/
theorem antenna3 (b : Fin 1024) (m : Fin 64) (k : Fin 32) (o : Fin 32) :
    val_main_v29 (F := Ideal) x0 x1 x2 x3 x4 x5 x6 x8 (ix4 b m k o)
      = ∑ d : Fin 32, (∑ k' : Fin 32, (val_main_v23 (F := Ideal) x0 x1 x2 x3 x4 x5 x6) (ix4 b m k' d)) * x8 (ix2 o d) := by
  rw [val_main_v29_apply, val_main_v28_apply,
    show idx_main_v28 (idx_main_v29 (ix4 b m k o)) = ix3 b m o from
      funext fun a => Fin.ext (by match a with | ⟨0, _⟩ => rfl | ⟨1, _⟩ => rfl | ⟨2, _⟩ => rfl),
    val_main_v27_apply]
  exact Finset.sum_congr rfl fun d _ => congrArg₂ (fun u v : EReal => u * v)
    ((congrArg (val_main_v24 (F := Ideal) x0 x1 x2 x3 x4 x5 x6)
        (show lidx_main_v27 (ix3 b m o) d = ix3 b m d from
          funext fun a => Fin.ext (by match a with | ⟨0, _⟩ => rfl | ⟨1, _⟩ => rfl | ⟨2, _⟩ => rfl))).trans
      (overUsers3 x0 x1 x2 x3 x4 x5 x6 b m d))
    (congrArg x8 (show ridx_main_v27 (ix3 b m o) d = ix2 o d from
      funext fun a => Fin.ext (by match a with | ⟨0, _⟩ => rfl | ⟨1, _⟩ => rfl)))

/-- The user's term: its aggregate over the antennas against the third weight matrix, the same for every antenna. -/
theorem user3 (b : Fin 1024) (m : Fin 64) (k : Fin 32) (o : Fin 32) :
    val_main_v33 (F := Ideal) x0 x1 x2 x3 x4 x5 x6 x9 (ix4 b m k o)
      = ∑ d : Fin 32, (∑ m' : Fin 64, (val_main_v23 (F := Ideal) x0 x1 x2 x3 x4 x5 x6) (ix4 b m' k d)) * x9 (ix2 o d) := by
  rw [val_main_v33_apply, val_main_v32_apply,
    show idx_main_v32 (idx_main_v33 (ix4 b m k o)) = ix3 b k o from
      funext fun a => Fin.ext (by match a with | ⟨0, _⟩ => rfl | ⟨1, _⟩ => rfl | ⟨2, _⟩ => rfl),
    val_main_v31_apply]
  exact Finset.sum_congr rfl fun d _ => congrArg₂ (fun u v : EReal => u * v)
    ((congrArg (val_main_v25 (F := Ideal) x0 x1 x2 x3 x4 x5 x6)
        (show lidx_main_v31 (ix3 b k o) d = ix3 b k d from
          funext fun a => Fin.ext (by match a with | ⟨0, _⟩ => rfl | ⟨1, _⟩ => rfl | ⟨2, _⟩ => rfl))).trans
      (overAntennas3 x0 x1 x2 x3 x4 x5 x6 b k d))
    (congrArg x9 (show ridx_main_v31 (ix3 b k o) d = ix2 o d from
      funext fun a => Fin.ext (by match a with | ⟨0, _⟩ => rfl | ⟨1, _⟩ => rfl)))

/-- The layer at one entry: edge + antenna + user, then the maximum with the value of the zero word. -/
theorem layer3_at (b : Fin 1024) (m : Fin 64) (k : Fin 32) (o : Fin 32) :
    val_main_v35 (F := Ideal) x0 x1 x2 x3 x4 x5 x6 x7 x8 x9 (ix4 b m k o)
      = Gnn.relu Gnn.zero (Gnn.layer (Gnn.mat x7) (Gnn.mat x8) (Gnn.mat x9) (slab (val_main_v23 (F := Ideal) x0 x1 x2 x3 x4 x5 x6) b)) m k o := by
  rw [val_main_v35_apply, val_main_v34_apply, val_main_v30_apply, edge3, antenna3, user3,
    val_main_call2_v0_apply, val_main_call2_cst_apply]
  rfl

/-! ## The fourth layer -/

/-- The layer's input summed over the users, at batch element `b`, antenna `m`, feature `d`: the sum starts from the
    value of the zero word, which is 0. -/
theorem overUsers4 (b : Fin 1024) (m : Fin 64) (d : Fin 32) :
    val_main_v36 (F := Ideal) x0 x1 x2 x3 x4 x5 x6 x7 x8 x9 (ix3 b m d) = ∑ k' : Fin 32, (val_main_v35 (F := Ideal) x0 x1 x2 x3 x4 x5 x6 x7 x8 x9) (ix4 b m k' d) := by
  rw [val_main_v36_apply, val_main_cst_5_apply, Ideal.ofBits_def, Ideal.ofBits_zero_f32, zero_add]
  exact Finset.sum_congr rfl fun k' _ => congrArg (val_main_v35 (F := Ideal) x0 x1 x2 x3 x4 x5 x6 x7 x8 x9)
    (funext fun a => Fin.ext (by match a with | ⟨0, _⟩ => rfl | ⟨1, _⟩ => rfl | ⟨2, _⟩ => rfl | ⟨3, _⟩ => rfl))

/-- The layer's input summed over the antennas, at batch element `b`, user `k`, feature `d`. -/
theorem overAntennas4 (b : Fin 1024) (k : Fin 32) (d : Fin 32) :
    val_main_v37 (F := Ideal) x0 x1 x2 x3 x4 x5 x6 x7 x8 x9 (ix3 b k d) = ∑ m' : Fin 64, (val_main_v35 (F := Ideal) x0 x1 x2 x3 x4 x5 x6 x7 x8 x9) (ix4 b m' k d) := by
  rw [val_main_v37_apply, val_main_cst_6_apply, Ideal.ofBits_def, Ideal.ofBits_zero_f32, zero_add]
  exact Finset.sum_congr rfl fun m' _ => congrArg (val_main_v35 (F := Ideal) x0 x1 x2 x3 x4 x5 x6 x7 x8 x9)
    (funext fun a => Fin.ext (by match a with | ⟨0, _⟩ => rfl | ⟨1, _⟩ => rfl | ⟨2, _⟩ => rfl | ⟨3, _⟩ => rfl))

/-- The edge's own term: the input's features against the first weight matrix. -/
theorem edge4 (b : Fin 1024) (m : Fin 64) (k : Fin 32) (o : Fin 32) :
    val_main_v38 (F := Ideal) x0 x1 x2 x3 x4 x5 x6 x7 x8 x9 x10 (ix4 b m k o) = ∑ d : Fin 32, (val_main_v35 (F := Ideal) x0 x1 x2 x3 x4 x5 x6 x7 x8 x9) (ix4 b m k d) * x10 (ix2 o d) := by
  rw [val_main_v38_apply]
  exact Finset.sum_congr rfl fun d _ => congrArg₂ (fun u v : EReal => u * v)
    (congrArg (val_main_v35 (F := Ideal) x0 x1 x2 x3 x4 x5 x6 x7 x8 x9) (funext fun a => Fin.ext (by match a with | ⟨0, _⟩ => rfl | ⟨1, _⟩ => rfl | ⟨2, _⟩ => rfl | ⟨3, _⟩ => rfl)))
    (congrArg x10 (funext fun a => Fin.ext (by match a with | ⟨0, _⟩ => rfl | ⟨1, _⟩ => rfl)))

/-- The antenna's term: its aggregate over the users against the second weight matrix, the same for every user. -/
theorem antenna4 (b : Fin 1024) (m : Fin 64) (k : Fin 32) (o : Fin 32) :
    val_main_v41 (F := Ideal) x0 x1 x2 x3 x4 x5 x6 x7 x8 x9 x11 (ix4 b m k o)
      = ∑ d : Fin 32, (∑ k' : Fin 32, (val_main_v35 (F := Ideal) x0 x1 x2 x3 x4 x5 x6 x7 x8 x9) (ix4 b m k' d)) * x11 (ix2 o d) := by
  rw [val_main_v41_apply, val_main_v40_apply,
    show idx_main_v40 (idx_main_v41 (ix4 b m k o)) = ix3 b m o from
      funext fun a => Fin.ext (by match a with | ⟨0, _⟩ => rfl | ⟨1, _⟩ => rfl | ⟨2, _⟩ => rfl),
    val_main_v39_apply]
  exact Finset.sum_congr rfl fun d _ => congrArg₂ (fun u v : EReal => u * v)
    ((congrArg (val_main_v36 (F := Ideal) x0 x1 x2 x3 x4 x5 x6 x7 x8 x9)
        (show lidx_main_v39 (ix3 b m o) d = ix3 b m d from
          funext fun a => Fin.ext (by match a with | ⟨0, _⟩ => rfl | ⟨1, _⟩ => rfl | ⟨2, _⟩ => rfl))).trans
      (overUsers4 x0 x1 x2 x3 x4 x5 x6 x7 x8 x9 b m d))
    (congrArg x11 (show ridx_main_v39 (ix3 b m o) d = ix2 o d from
      funext fun a => Fin.ext (by match a with | ⟨0, _⟩ => rfl | ⟨1, _⟩ => rfl)))

/-- The user's term: its aggregate over the antennas against the third weight matrix, the same for every antenna. -/
theorem user4 (b : Fin 1024) (m : Fin 64) (k : Fin 32) (o : Fin 32) :
    val_main_v45 (F := Ideal) x0 x1 x2 x3 x4 x5 x6 x7 x8 x9 x12 (ix4 b m k o)
      = ∑ d : Fin 32, (∑ m' : Fin 64, (val_main_v35 (F := Ideal) x0 x1 x2 x3 x4 x5 x6 x7 x8 x9) (ix4 b m' k d)) * x12 (ix2 o d) := by
  rw [val_main_v45_apply, val_main_v44_apply,
    show idx_main_v44 (idx_main_v45 (ix4 b m k o)) = ix3 b k o from
      funext fun a => Fin.ext (by match a with | ⟨0, _⟩ => rfl | ⟨1, _⟩ => rfl | ⟨2, _⟩ => rfl),
    val_main_v43_apply]
  exact Finset.sum_congr rfl fun d _ => congrArg₂ (fun u v : EReal => u * v)
    ((congrArg (val_main_v37 (F := Ideal) x0 x1 x2 x3 x4 x5 x6 x7 x8 x9)
        (show lidx_main_v43 (ix3 b k o) d = ix3 b k d from
          funext fun a => Fin.ext (by match a with | ⟨0, _⟩ => rfl | ⟨1, _⟩ => rfl | ⟨2, _⟩ => rfl))).trans
      (overAntennas4 x0 x1 x2 x3 x4 x5 x6 x7 x8 x9 b k d))
    (congrArg x12 (show ridx_main_v43 (ix3 b k o) d = ix2 o d from
      funext fun a => Fin.ext (by match a with | ⟨0, _⟩ => rfl | ⟨1, _⟩ => rfl)))

/-- The layer at one entry: edge + antenna + user, then the maximum with the value of the zero word. -/
theorem layer4_at (b : Fin 1024) (m : Fin 64) (k : Fin 32) (o : Fin 32) :
    val_main_v47 (F := Ideal) x0 x1 x2 x3 x4 x5 x6 x7 x8 x9 x10 x11 x12 (ix4 b m k o)
      = Gnn.relu Gnn.zero (Gnn.layer (Gnn.mat x10) (Gnn.mat x11) (Gnn.mat x12) (slab (val_main_v35 (F := Ideal) x0 x1 x2 x3 x4 x5 x6 x7 x8 x9) b)) m k o := by
  rw [val_main_v47_apply, val_main_v46_apply, val_main_v42_apply, edge4, antenna4, user4,
    val_main_call3_v0_apply, val_main_call3_cst_apply]
  rfl

/-! ## The fifth layer -/

/-- The layer's input summed over the users, at batch element `b`, antenna `m`, feature `d`: the sum starts from the
    value of the zero word, which is 0. -/
theorem overUsers5 (b : Fin 1024) (m : Fin 64) (d : Fin 32) :
    val_main_v48 (F := Ideal) x0 x1 x2 x3 x4 x5 x6 x7 x8 x9 x10 x11 x12 (ix3 b m d) = ∑ k' : Fin 32, (val_main_v47 (F := Ideal) x0 x1 x2 x3 x4 x5 x6 x7 x8 x9 x10 x11 x12) (ix4 b m k' d) := by
  rw [val_main_v48_apply, val_main_cst_7_apply, Ideal.ofBits_def, Ideal.ofBits_zero_f32, zero_add]
  exact Finset.sum_congr rfl fun k' _ => congrArg (val_main_v47 (F := Ideal) x0 x1 x2 x3 x4 x5 x6 x7 x8 x9 x10 x11 x12)
    (funext fun a => Fin.ext (by match a with | ⟨0, _⟩ => rfl | ⟨1, _⟩ => rfl | ⟨2, _⟩ => rfl | ⟨3, _⟩ => rfl))

/-- The layer's input summed over the antennas, at batch element `b`, user `k`, feature `d`. -/
theorem overAntennas5 (b : Fin 1024) (k : Fin 32) (d : Fin 32) :
    val_main_v49 (F := Ideal) x0 x1 x2 x3 x4 x5 x6 x7 x8 x9 x10 x11 x12 (ix3 b k d) = ∑ m' : Fin 64, (val_main_v47 (F := Ideal) x0 x1 x2 x3 x4 x5 x6 x7 x8 x9 x10 x11 x12) (ix4 b m' k d) := by
  rw [val_main_v49_apply, val_main_cst_8_apply, Ideal.ofBits_def, Ideal.ofBits_zero_f32, zero_add]
  exact Finset.sum_congr rfl fun m' _ => congrArg (val_main_v47 (F := Ideal) x0 x1 x2 x3 x4 x5 x6 x7 x8 x9 x10 x11 x12)
    (funext fun a => Fin.ext (by match a with | ⟨0, _⟩ => rfl | ⟨1, _⟩ => rfl | ⟨2, _⟩ => rfl | ⟨3, _⟩ => rfl))

/-- The edge's own term: the input's features against the first weight matrix. -/
theorem edge5 (b : Fin 1024) (m : Fin 64) (k : Fin 32) (o : Fin 2) :
    val_main_v50 (F := Ideal) x0 x1 x2 x3 x4 x5 x6 x7 x8 x9 x10 x11 x12 x13 (ix4 b m k o) = ∑ d : Fin 32, (val_main_v47 (F := Ideal) x0 x1 x2 x3 x4 x5 x6 x7 x8 x9 x10 x11 x12) (ix4 b m k d) * x13 (ix2 o d) := by
  rw [val_main_v50_apply]
  exact Finset.sum_congr rfl fun d _ => congrArg₂ (fun u v : EReal => u * v)
    (congrArg (val_main_v47 (F := Ideal) x0 x1 x2 x3 x4 x5 x6 x7 x8 x9 x10 x11 x12) (funext fun a => Fin.ext (by match a with | ⟨0, _⟩ => rfl | ⟨1, _⟩ => rfl | ⟨2, _⟩ => rfl | ⟨3, _⟩ => rfl)))
    (congrArg x13 (funext fun a => Fin.ext (by match a with | ⟨0, _⟩ => rfl | ⟨1, _⟩ => rfl)))

/-- The antenna's term: its aggregate over the users against the second weight matrix, the same for every user. -/
theorem antenna5 (b : Fin 1024) (m : Fin 64) (k : Fin 32) (o : Fin 2) :
    val_main_v53 (F := Ideal) x0 x1 x2 x3 x4 x5 x6 x7 x8 x9 x10 x11 x12 x14 (ix4 b m k o)
      = ∑ d : Fin 32, (∑ k' : Fin 32, (val_main_v47 (F := Ideal) x0 x1 x2 x3 x4 x5 x6 x7 x8 x9 x10 x11 x12) (ix4 b m k' d)) * x14 (ix2 o d) := by
  rw [val_main_v53_apply, val_main_v52_apply,
    show idx_main_v52 (idx_main_v53 (ix4 b m k o)) = ix3 b m o from
      funext fun a => Fin.ext (by match a with | ⟨0, _⟩ => rfl | ⟨1, _⟩ => rfl | ⟨2, _⟩ => rfl),
    val_main_v51_apply]
  exact Finset.sum_congr rfl fun d _ => congrArg₂ (fun u v : EReal => u * v)
    ((congrArg (val_main_v48 (F := Ideal) x0 x1 x2 x3 x4 x5 x6 x7 x8 x9 x10 x11 x12)
        (show lidx_main_v51 (ix3 b m o) d = ix3 b m d from
          funext fun a => Fin.ext (by match a with | ⟨0, _⟩ => rfl | ⟨1, _⟩ => rfl | ⟨2, _⟩ => rfl))).trans
      (overUsers5 x0 x1 x2 x3 x4 x5 x6 x7 x8 x9 x10 x11 x12 b m d))
    (congrArg x14 (show ridx_main_v51 (ix3 b m o) d = ix2 o d from
      funext fun a => Fin.ext (by match a with | ⟨0, _⟩ => rfl | ⟨1, _⟩ => rfl)))

/-- The user's term: its aggregate over the antennas against the third weight matrix, the same for every antenna. -/
theorem user5 (b : Fin 1024) (m : Fin 64) (k : Fin 32) (o : Fin 2) :
    val_main_v57 (F := Ideal) x0 x1 x2 x3 x4 x5 x6 x7 x8 x9 x10 x11 x12 x15 (ix4 b m k o)
      = ∑ d : Fin 32, (∑ m' : Fin 64, (val_main_v47 (F := Ideal) x0 x1 x2 x3 x4 x5 x6 x7 x8 x9 x10 x11 x12) (ix4 b m' k d)) * x15 (ix2 o d) := by
  rw [val_main_v57_apply, val_main_v56_apply,
    show idx_main_v56 (idx_main_v57 (ix4 b m k o)) = ix3 b k o from
      funext fun a => Fin.ext (by match a with | ⟨0, _⟩ => rfl | ⟨1, _⟩ => rfl | ⟨2, _⟩ => rfl),
    val_main_v55_apply]
  exact Finset.sum_congr rfl fun d _ => congrArg₂ (fun u v : EReal => u * v)
    ((congrArg (val_main_v49 (F := Ideal) x0 x1 x2 x3 x4 x5 x6 x7 x8 x9 x10 x11 x12)
        (show lidx_main_v55 (ix3 b k o) d = ix3 b k d from
          funext fun a => Fin.ext (by match a with | ⟨0, _⟩ => rfl | ⟨1, _⟩ => rfl | ⟨2, _⟩ => rfl))).trans
      (overAntennas5 x0 x1 x2 x3 x4 x5 x6 x7 x8 x9 x10 x11 x12 b k d))
    (congrArg x15 (show ridx_main_v55 (ix3 b k o) d = ix2 o d from
      funext fun a => Fin.ext (by match a with | ⟨0, _⟩ => rfl | ⟨1, _⟩ => rfl)))

/-- The layer at one entry: edge + antenna + user (no rectifier after the last layer). -/
theorem layer5_at (b : Fin 1024) (m : Fin 64) (k : Fin 32) (o : Fin 2) :
    val_main_v58 (F := Ideal) x0 x1 x2 x3 x4 x5 x6 x7 x8 x9 x10 x11 x12 x13 x14 x15 (ix4 b m k o)
      = Gnn.layer (Gnn.mat x13) (Gnn.mat x14) (Gnn.mat x15) (slab (val_main_v47 (F := Ideal) x0 x1 x2 x3 x4 x5 x6 x7 x8 x9 x10 x11 x12) b) m k o := by
  rw [val_main_v58_apply, val_main_v54_apply, edge5, antenna5, user5]
  rfl

/-! ## The network up to the normalisation -/

/-- Batch element `b` after the first layer. -/
theorem out1 (b : Fin 1024) : slab (val_main_v11 (F := Ideal) x0 x1 x2 x3) b = (Gnn.relu Gnn.zero (Gnn.layer (Gnn.mat x1) (Gnn.mat x2) (Gnn.mat x3) (slab x0 b))) :=
  funext fun m => funext fun k => funext fun o => layer1_at x0 x1 x2 x3 b m k o

/-- Batch element `b` after the second layer: the layer applied to what the layers before it give. -/
theorem out2 (b : Fin 1024) : slab (val_main_v23 (F := Ideal) x0 x1 x2 x3 x4 x5 x6) b
    = (Gnn.relu Gnn.zero (Gnn.layer (Gnn.mat x4) (Gnn.mat x5) (Gnn.mat x6) (Gnn.relu Gnn.zero (Gnn.layer (Gnn.mat x1) (Gnn.mat x2) (Gnn.mat x3) (slab x0 b))))) := by
  rw [← out1 x0 x1 x2 x3 b]
  exact funext fun m => funext fun k => funext fun o => layer2_at x0 x1 x2 x3 x4 x5 x6 b m k o

/-- Batch element `b` after the third layer: the layer applied to what the layers before it give. -/
theorem out3 (b : Fin 1024) : slab (val_main_v35 (F := Ideal) x0 x1 x2 x3 x4 x5 x6 x7 x8 x9) b
    = (Gnn.relu Gnn.zero (Gnn.layer (Gnn.mat x7) (Gnn.mat x8) (Gnn.mat x9) (Gnn.relu Gnn.zero (Gnn.layer (Gnn.mat x4) (Gnn.mat x5) (Gnn.mat x6) (Gnn.relu Gnn.zero (Gnn.layer (Gnn.mat x1) (Gnn.mat x2) (Gnn.mat x3) (slab x0 b))))))) := by
  rw [← out2 x0 x1 x2 x3 x4 x5 x6 b]
  exact funext fun m => funext fun k => funext fun o => layer3_at x0 x1 x2 x3 x4 x5 x6 x7 x8 x9 b m k o

/-- Batch element `b` after the fourth layer: the layer applied to what the layers before it give. -/
theorem out4 (b : Fin 1024) : slab (val_main_v47 (F := Ideal) x0 x1 x2 x3 x4 x5 x6 x7 x8 x9 x10 x11 x12) b
    = (Gnn.relu Gnn.zero (Gnn.layer (Gnn.mat x10) (Gnn.mat x11) (Gnn.mat x12) (Gnn.relu Gnn.zero (Gnn.layer (Gnn.mat x7) (Gnn.mat x8) (Gnn.mat x9) (Gnn.relu Gnn.zero (Gnn.layer (Gnn.mat x4) (Gnn.mat x5) (Gnn.mat x6) (Gnn.relu Gnn.zero (Gnn.layer (Gnn.mat x1) (Gnn.mat x2) (Gnn.mat x3) (slab x0 b))))))))) := by
  rw [← out3 x0 x1 x2 x3 x4 x5 x6 x7 x8 x9 b]
  exact funext fun m => funext fun k => funext fun o => layer4_at x0 x1 x2 x3 x4 x5 x6 x7 x8 x9 x10 x11 x12 b m k o

/-- Batch element `b` after the fifth layer: the layer applied to what the layers before it give. -/
theorem out5 (b : Fin 1024) : slab (val_main_v58 (F := Ideal) x0 x1 x2 x3 x4 x5 x6 x7 x8 x9 x10 x11 x12 x13 x14 x15) b
    = (Gnn.layer (Gnn.mat x13) (Gnn.mat x14) (Gnn.mat x15) (Gnn.relu Gnn.zero (Gnn.layer (Gnn.mat x10) (Gnn.mat x11) (Gnn.mat x12) (Gnn.relu Gnn.zero (Gnn.layer (Gnn.mat x7) (Gnn.mat x8) (Gnn.mat x9) (Gnn.relu Gnn.zero (Gnn.layer (Gnn.mat x4) (Gnn.mat x5) (Gnn.mat x6) (Gnn.relu Gnn.zero (Gnn.layer (Gnn.mat x1) (Gnn.mat x2) (Gnn.mat x3) (slab x0 b)))))))))) := by
  rw [← out4 x0 x1 x2 x3 x4 x5 x6 x7 x8 x9 x10 x11 x12 b]
  exact funext fun m => funext fun k => funext fun o => layer5_at x0 x1 x2 x3 x4 x5 x6 x7 x8 x9 x10 x11 x12 x13 x14 x15 b m k o

/-! ## The power normalisation -/

/-- The program's sum over antennas, users and channels of the squared fifth-layer output, at batch element `b`:
    the initial value is the zero word's, and the summand is the product of the entry with itself. -/
theorem v60_at (b : Fin 1024) :
    val_main_v60 (F := Ideal) x0 x1 x2 x3 x4 x5 x6 x7 x8 x9 x10 x11 x12 x13 x14 x15 (ix1 b)
      = ∑ m : Fin 64, ∑ k : Fin 32, ∑ c : Fin 2, val_main_v59 (F := Ideal) x0 x1 x2 x3 x4 x5 x6 x7 x8 x9 x10 x11 x12 x13 x14 x15 (ix4 b m k c) := by
  unfold val_main_v60
  generalize val_main_v59 (F := Ideal) x0 x1 x2 x3 x4 x5 x6 x7 x8 x9 x10 x11 x12 x13 x14 x15 = X
  simp only [Host.reduceAdd, Ideal.hostReduceAdd_def]
  refine (hostReduceAdd_batch _ _ _ b).trans ?_
  rw [val_main_cst_9_apply, Ideal.ofBits_def, Ideal.ofBits_zero_f32, zero_add]

/-- That sum is the specification's total power of batch element `b`: the same finite sum in another order. -/
theorem power_at (b : Fin 1024) :
    val_main_v60 (F := Ideal) x0 x1 x2 x3 x4 x5 x6 x7 x8 x9 x10 x11 x12 x13 x14 x15 (ix1 b) = Gnn.power (slab (val_main_v58 (F := Ideal) x0 x1 x2 x3 x4 x5 x6 x7 x8 x9 x10 x11 x12 x13 x14 x15) b) := by
  rw [v60_at, Gnn.power_eq]
  rfl

/-- The result at one entry: the square root of 1 over the power of its batch element, times the fifth layer's entry. -/
theorem norm_at (b : Fin 1024) (m : Fin 64) (k : Fin 32) (c : Fin 2) :
    val_main_v66 (F := Ideal) x0 x1 x2 x3 x4 x5 x6 x7 x8 x9 x10 x11 x12 x13 x14 x15 (ix4 b m k c)
      = Gnn.normalize Gnn.one (slab (val_main_v58 (F := Ideal) x0 x1 x2 x3 x4 x5 x6 x7 x8 x9 x10 x11 x12 x13 x14 x15) b) m k c := by
  rw [val_main_v66_apply, val_main_v65_apply, val_main_v64_apply, val_main_v63_apply, val_main_v62_apply,
    val_main_cst_10_apply, val_main_v61_apply,
    show idx_main_v61 (idx_main_v65 (ix4 b m k c)) = ix1 b from
      funext fun a => Fin.ext (by match a with | ⟨0, _⟩ => rfl),
    power_at]
  rfl

end Stages

/-! ## The whole result array -/

/-- The reference program's result array is the network of its sixteen argument arrays: at every index, batch
    element `b` of the input through the five layers and the normalisation. -/
theorem result_eq (x0 : (⟨S1024x64x32x2, .f32⟩ : BufTy).Contents (Elt Ideal))
    (x1 x2 x3 : (⟨S32x2, .f32⟩ : BufTy).Contents (Elt Ideal))
    (x4 x5 x6 x7 x8 x9 x10 x11 x12 : (⟨S32x32, .f32⟩ : BufTy).Contents (Elt Ideal))
    (x13 x14 x15 : (⟨S2x32, .f32⟩ : BufTy).Contents (Elt Ideal)) :
    Cert.ReferenceIdeal.ReadP.val_main_v66 (F := Ideal) x0 x1 x2 x3 x4 x5 x6 x7 x8 x9 x10 x11 x12 x13 x14 x15
      = Cert.Gnn.G x0 x1 x2 x3 x4 x5 x6 x7 x8 x9 x10 x11 x12 x13 x14 x15 := by
  refine funext fun (i : S1024x64x32x2.Idx) => ?_
  obtain ⟨b, m, k, c, rfl⟩ : ∃ (b : Fin 1024) (m : Fin 64) (k : Fin 32) (c : Fin 2), i = ix4 b m k c :=
    ⟨i 0, i 1, i 2, i 3, eq_ix4 i⟩
  rw [Cert.Gnn.G_apply, norm_at, out5]
  rfl

end Cert.ReferenceIdeal.RefValue

end
-- ==== Proof.lean ====
/-
  The certificate of a five-layer bipartite antenna/user message-passing network with power normalisation: a vector-unit
  kernel that keeps every hidden activation on chip, against its plain array-program reference.

  Both idealized programs compute, for every batch element, `Gnn.net` of the input (GnnSpec.lean): each layer is
  Σ_d x·Ws + Σ_d (Σ_users x)·Wm + Σ_d (Σ_antennas x)·Wk with the terms added in the same order on both sides, four layers
  are rectified, and the last is scaled by sqrt(1 / total power). The kernel works on blocks of 8 batch elements laid out
  (batch, user, feature, antenna) and multiplies W·x where the reference multiplies x·W; it sums the power antennas
  first, then users, then channels, where the reference sums all three at once. Commutativity of the product and the
  order of a finite sum are all that separates the two, so the precondition is never opened.

  `frame` of the two kernels is the generated frame run; the reference's frame is its run with the result dropped;
  `preserves` is trivial (the idealization rewrote nothing); `algebraic` puts the kernel's run (KernelRun.lean) beside the
  reference's (its stage-by-stage reading, RefValue.lean) at the one function `Gnn.G` of arguments that agree.
-/
import proofs.«170046_j44495861186889_2_alg».proof.Defs
import proofs.«170046_j44495861186889_2_alg».proof.Proof.Gen.Kernel
import proofs.«170046_j44495861186889_2_alg».proof.Proof.Gen.Kernel.Skeleton
import proofs.«170046_j44495861186889_2_alg».proof.Proof.Gen.Kernel.Launch
import proofs.«170046_j44495861186889_2_alg».proof.Proof.Gen.Kernel.Points
import proofs.«170046_j44495861186889_2_alg».proof.Proof.Gen.Kernel.Frame
import proofs.«170046_j44495861186889_2_alg».proof.Proof.Gen.KernelIdeal
import proofs.«170046_j44495861186889_2_alg».proof.Proof.Gen.KernelIdeal.Skeleton
import proofs.«170046_j44495861186889_2_alg».proof.Proof.Gen.KernelIdeal.Launch
import proofs.«170046_j44495861186889_2_alg».proof.Proof.Gen.KernelIdeal.Points
import proofs.«170046_j44495861186889_2_alg».proof.Proof.Gen.KernelIdeal.Frame
import proofs.«170046_j44495861186889_2_alg».proof.Proof.Gen.ReferenceIdeal
import proofs.«170046_j44495861186889_2_alg».proof.Proof.Gen.Pre_finite_inputs
import proofs.«170046_j44495861186889_2_alg».proof.Proof.RefRunPatched
import proofs.«170046_j44495861186889_2_alg».proof.Proof.RefReadPatched
import proofs.«170046_j44495861186889_2_alg».proof.Proof.RefReadEqPatched
import proofs.«170046_j44495861186889_2_alg».proof.Proof.GnnSpec
import proofs.«170046_j44495861186889_2_alg».proof.Proof.KernelRun
import proofs.«170046_j44495861186889_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result at `Gnn.G` of their arguments, and the arguments agree. -/
theorem algebraic : Cert.algebraic_KernelIdeal_ReferenceIdeal := by
  intro m ρ m' ρ' _ hagree
  refine ⟨fun c => Cert.Gnn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15⟩ := hagree c
  rw [Cert.ReferenceIdeal.ReadP.val_main_v66_eq, Cert.ReferenceIdeal.RefValue.result_eq, h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
